-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S_ : Shape := ⟨0, ![]⟩
abbrev S1000001x128 : Shape := ⟨2, ![1000001, 128]⟩

class Facts : Prop where
  bcast_S_S1000001x128 : S_.BroadcastsInDim S1000001x128 (![] : Fin 0 → Fin S1000001x128.rank)
  reducesTo_S1000001x128_S_d0_1 : S1000001x128.ReducesTo [0, 1] S_
  h_S_ : 0 < S_.numel
  bcast_S_S16384 : S_.BroadcastsInDim S16384 (![] : Fin 0 → Fin S16384.rank)
  reducesTo_S16384_S_d0 : S16384.ReducesTo [0] S_
  reducesTo_S_S_d : S_.ReducesTo [] S_

variable [Facts]

def fn {F : FTy → Type} [FloatOps F] (main_arg0 : IVec S16384 32) (main_arg1 : IVec S_ 32) (main_arg2 : FVec F S1000001x128 .f32) : IVec S_ 1 :=
  let main_v0 : FVec F S1000001x128 .f32 := Host.absf main_arg2
  let main_cst : FVec F S_ .f32 := constant S_ .f32 0x7F800000#32
  let main_v1 : FVec F S1000001x128 .f32 := broadcastInDim S1000001x128 ![] bcast_S_S1000001x128 main_cst
  let main_v2 : IVec S1000001x128 1 := cmpf .olt main_v0 main_v1
  let main_c : IVec S_ 1 := constantI S_ 1 1#1
  let main_v3 : IVec S_ 1 := (fun x v => Host.reduce IntOp.andi x v reducesTo_S1000001x128_S_d0_1 h_S_) main_v2 main_c
  let main_c_0 : IVec S_ 32 := constantI S_ 32 0#32
  let main_v4 : IVec S16384 32 := broadcastInDim S16384 ![] bcast_S_S16384 main_c_0
  let main_v5 : IVec S16384 1 := cmpi .sge main_arg0 main_v4
  let main_c_1 : IVec S_ 32 := constantI S_ 32 999999#32
  let main_v6 : IVec S16384 32 := broadcastInDim S16384 ![] bcast_S_S16384 main_c_1
  let main_v7 : IVec S16384 1 := cmpi .sle main_arg0 main_v6
  let main_v8 : IVec S16384 1 := andi main_v5 main_v7
  let main_c_2 : IVec S_ 1 := constantI S_ 1 1#1
  let main_v9 : IVec S_ 1 := (fun x v => Host.reduce IntOp.andi x v reducesTo_S16384_S_d0 h_S_) main_v8 main_c_2
  let main_v10 : IVec S_ 1 := andi main_v3 main_v9
  let main_c_3 : IVec S_ 32 := constantI S_ 32 0#32
  let main_v11 : IVec S_ 1 := cmpi .sge main_arg1 main_c_3
  let main_c_4 : IVec S_ 32 := constantI S_ 32 0#32
  let main_v12 : IVec S_ 1 := cmpi .sle main_arg1 main_c_4
  let main_v13 : IVec S_ 1 := andi main_v11 main_v12
  let main_c_5 : IVec S_ 1 := constantI S_ 1 1#1
  let main_v14 : IVec S_ 1 := (fun x v => Host.reduce IntOp.andi x v reducesTo_S_S_d h_S_) main_v13 main_c_5
  let main_v15 : IVec S_ 1 := andi main_v10 main_v14
  main_v15
-- ==== Kernel.lean ====
abbrev S16384 : Shape := ⟨1, ![16384]⟩
abbrev S_ : Shape := ⟨0, ![]⟩
abbrev S1000001x128 : Shape := ⟨2, ![1000001, 128]⟩
abbrev S16384x128 : Shape := ⟨2, ![16384, 128]⟩
abbrev S512 : Shape := ⟨1, ![512]⟩
abbrev S512x128 : Shape := ⟨2, ![512, 128]⟩

abbrev nBuf : Table → Nat
  | .hbm => 4
  | .local .scVector .vmem => 2
  | _ => 0

abbrev bufTy : (tb : Table) → Fin (nBuf tb) → BufTy
  | .hbm, ⟨0, _⟩ => ⟨S16384, .i32⟩
  | .hbm, ⟨1, _⟩ => ⟨S_, .i32⟩
  | .hbm, ⟨2, _⟩ => ⟨S1000001x128, .f32⟩
  | .hbm, ⟨3, _⟩ => ⟨S16384x128, .f32⟩
  | .local .scVector .vmem, ⟨0, _⟩ => ⟨S512, .i32⟩
  | .local .scVector .vmem, ⟨1, _⟩ => ⟨S512x128, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg0_scv : Ref sig .scVector := ⟨.hbm, 0, rfl⟩
abbrev main_arg2_scv : Ref sig .scVector := ⟨.hbm, 2, rfl⟩
abbrev main_v0_scv : Ref sig .scVector := ⟨.hbm, 3, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_3_r1 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S1000001x128_S1000001x128_0_0 : ∀ a, (![0, 0] : Fin 2 → Nat) a + S1000001x128.size a ≤ S1000001x128.size a
  gathers_S1000001x128_S512x128 : S1000001x128.Gathers 0 S512x128
  hcc0_scratch2 : 0 + S_.numel ≤ 3
  hcc0_scoped0 : 1 + S_.numel ≤ 3
  hcc0_scoped1 : 2 + S_.numel ≤ 3
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S512.size a ≤ S16384.size a
  k0_off2_inb : ∀ i : grid0.Coords, ∀ a, (k0_off2 i) a + S512x128.size a ≤ S16384x128.size a

variable [Facts₀]

abbrev cc0_scratch2 : DmaSems sig S_ := SemArray.consecutive 0 S_ hcc0_scratch2
abbrev cc0_scoped0 : DmaSems sig S_ := SemArray.consecutive 1 S_ hcc0_scoped0
abbrev cc0_scoped1 : DmaSems sig S_ := SemArray.consecutive 2 S_ hcc0_scoped1

class Facts : Prop extends Facts₀ where

variable [Facts]
-- ==== ReferenceIdeal.lean ====
abbrev S16384 : Shape := ⟨1, ![16384]⟩
abbrev S_ : Shape := ⟨0, ![]⟩
abbrev S1000001x128 : Shape := ⟨2, ![1000001, 128]⟩
abbrev S16384x1 : Shape := ⟨2, ![16384, 1]⟩
abbrev S1 : Shape := ⟨1, ![1]⟩
abbrev S1x1 : Shape := ⟨2, ![1, 1]⟩
abbrev S16384x128 : Shape := ⟨2, ![16384, 128]⟩

abbrev nBuf : Space → Nat
  | .hbm => 26
  | .vmem => 0
  | .smem => 0
  | _ => 0

abbrev bufTy : (tb : Table) → Fin (tcTables nBuf tb) → BufTy
  | .hbm, ⟨0, _⟩ => ⟨S16384, .i32⟩
  | .hbm, ⟨1, _⟩ => ⟨S_, .i32⟩
  | .hbm, ⟨2, _⟩ => ⟨S1000001x128, .f32⟩
  | .hbm, ⟨3, _⟩ => ⟨S_, .i32⟩
  | .hbm, ⟨4, _⟩ => ⟨S16384, .i32⟩
  | .hbm, ⟨5, _⟩ => ⟨S16384, .i1⟩
  | .hbm, ⟨6, _⟩ => ⟨S_, .i32⟩
  | .hbm, ⟨7, _⟩ => ⟨S16384, .i32⟩
  | .hbm, ⟨8, _⟩ => ⟨S16384, .i32⟩
  | .hbm, ⟨9, _⟩ => ⟨S16384, .i32⟩
  | .hbm, ⟨10, _⟩ => ⟨S16384x1, .i32⟩
  | .hbm, ⟨11, _⟩ => ⟨S1, .i32⟩
  | .hbm, ⟨12, _⟩ => ⟨S_, .i32⟩
  | .hbm, ⟨13, _⟩ => ⟨S16384x1, .i32⟩
  | .hbm, ⟨14, _⟩ => ⟨S16384x1, .i1⟩
  | .hbm, ⟨15, _⟩ => ⟨S1x1, .i32⟩
  | .hbm, ⟨16, _⟩ => ⟨S16384x1, .i32⟩
  | .hbm, ⟨17, _⟩ => ⟨S16384x1, .i1⟩
  | .hbm, ⟨18, _⟩ => ⟨S16384x1, .i1⟩
  | .hbm, ⟨19, _⟩ => ⟨S_, .i1⟩
  | .hbm, ⟨20, _⟩ => ⟨S16384, .i1⟩
  | .hbm, ⟨21, _⟩ => ⟨S16384x128, .f32⟩
  | .hbm, ⟨22, _⟩ => ⟨S16384x128, .i1⟩
  | .hbm, ⟨23, _⟩ => ⟨S_, .f32⟩
  | .hbm, ⟨24, _⟩ => ⟨S16384x128, .f32⟩
  | .hbm, ⟨25, _⟩ => ⟨S16384x128, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x128_0 : S16384.BroadcastsInDim S16384x128 (![0] : Fin 1 → Fin S16384x128.rank)
  bcast_S_S16384x128 : S_.BroadcastsInDim S16384x128 (![] : Fin 0 → Fin S16384x128.rank)
  gather_S1000001x128_S16384x1_S16384x128_1_0_n_n_0_1_1128_wf : GatherDims.WF S1000001x128 S16384x1 S16384x128 [1] [0] [] [0] [] 1 ![1, 128]

variable [Facts₀]

def gather_S1000001x128_S16384x1_S16384x128_1_0_n_n_0_1_1128 : GatherDims S1000001x128 S16384x1 S16384x128 where
  offsetDims := [1]
  collapsedSliceDims := [0]
  operandBatchingDims := []
  startIndicesBatchingDims := []
  startIndexMap := [0]
  indexVectorDim := 1
  sliceSizes := ![1, 128]
  wf := gather_S1000001x128_S16384x1_S16384x128_1_0_n_n_0_1_1128_wf

class Facts : Prop extends Facts₀ where

variable [Facts]
-- ==== Proof.Spec.lean ====
/-
  The specification both programs meet: an embedding lookup. The result has one row per label; row `r` of the result
  is the table's row numbered by label `r`, column by column. The label is a 32-bit word read as a natural number; so
  that the function is total it is capped at the table's last row (number 1000000), which changes nothing where every
  label is at most 999999 — the only place the two programs are compared.
-/
import Idealize.ShloMosaic.Lib.ValueIdx

noncomputable section

namespace Cert.Spec

open Idealize.ShloMosaic Idealize.ShloMosaic.ValueIdx

/-- The labels: 16384 words. -/
abbrev SLab : Shape := ⟨1, ![16384]⟩
/-- The table: 1000001 rows of 128 columns. -/
abbrev STab : Shape := ⟨2, ![1000001, 128]⟩
/-- The result: 16384 rows of 128 columns. -/
abbrev SOut : Shape := ⟨2, ![16384, 128]⟩

/-- The table row a label word names: the word as a natural number, capped at the last row. -/
def rowNo (w : BitVec 32) : Fin 1000001 := ⟨min w.toNat 1000000, by omega⟩

/-- A label of at most 999999 names the row of its own number. -/
theorem rowNo_val {w : BitVec 32} (h : w.toNat ≤ 999999) : (rowNo w).val = w.toNat := by
  show min w.toNat 1000000 = w.toNat
  omega

/-- The lookup: entry `(r, q)` of the result is entry `(label r, q)` of the table. -/
def lookup {α : Type} (lab : SLab.Idx → BitVec 32) (tbl : STab.Idx → α) : SOut.Idx → α :=
  fun j => tbl (ix2 (rowNo (lab (ix1 (⟨(j 0).val, idx2_lt0 j⟩ : Fin 16384)))) (⟨(j 1).val, idx2_lt1 j⟩ : Fin 128))

/-- The lookup at explicit coordinates. -/
theorem lookup_apply {α : Type} (lab : SLab.Idx → BitVec 32) (tbl : STab.Idx → α) (r : Fin 16384) (q : Fin 128) :
    lookup lab tbl (ix2 r q) = tbl (ix2 (rowNo (lab (ix1 r))) q) := rfl

end Cert.Spec

end
-- ==== Proof.KISetup.lean ====
/-
  The lookup kernel as the launch theorem sees it, and what its threads hand one another.

  Thirty-two vector subcores (two SparseCores of sixteen) each own one block of 512 consecutive rows: subcore `s` of
  SparseCore `c` is worker `w = 2 s + c` and owns rows `[512 w, 512 w + 512)` of the labels and of the result. A worker
  copies its 512 labels into its own index buffer, has the table's rows those labels name copied into its own row buffer,
  and copies that buffer out to its block of the result. Every worker reads the whole table, so the table is handed out
  as thirty-two read tokens (shares of the full ownership) and a remainder the TensorCore keeps; the labels and the
  result are handed out block by block. A worker returns its label block and its token unchanged and its result block
  holding the specification's values.
-/
import proofs.«209772_g1726576855934_cont_week2b_1416_16_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«209772_g1726576855934_cont_week2b_1416_16_alg».proof.Proof.Gen.KernelIdeal
import proofs.«209772_g1726576855934_cont_week2b_1416_16_alg».proof.Proof.Gen.KernelIdeal.Skeleton
import proofs.«209772_g1726576855934_cont_week2b_1416_16_alg».proof.Proof.Spec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory, the arrays and their blocks -/

variable (m : (ℓ : Loc nD τ sig) → Buf (Elt F) ℓ) (ρ : Dev nD → PrngReg)

/-- The labels, the unused scalar argument, the table and the result, on device `d`. -/
abbrev lLoc (d : Dev nD) : Loc nD τ sig := (SparseCore.T d).loc main_arg0
abbrev aLoc (d : Dev nD) : Loc nD τ sig := (SparseCore.T d).loc main_arg1
abbrev tLoc (d : Dev nD) : Loc nD τ sig := (SparseCore.T d).loc main_arg2
abbrev oLoc (d : Dev nD) : Loc nD τ sig := (SparseCore.T d).loc main_v0

local notation "lV" => (Memref.whole Cert.KernelIdeal.main_arg0_scv : Memref Cert.KernelIdeal.sig Kind.scVector Space.hbm Cert.KernelIdeal.S16384 EltTy.i32)
local notation "tV" => (Memref.whole Cert.KernelIdeal.main_arg2_scv : Memref Cert.KernelIdeal.sig Kind.scVector Space.hbm Cert.KernelIdeal.S1000001x128 EltTy.f32)
local notation "oV" => (Memref.whole Cert.KernelIdeal.main_v0_scv : Memref Cert.KernelIdeal.sig Kind.scVector Space.hbm Cert.KernelIdeal.S16384x128 EltTy.f32)
local notation "sV" => (Memref.whole Cert.KernelIdeal.cc0_scratch0 : Memref Cert.KernelIdeal.sig Kind.scVector Space.vmem Cert.KernelIdeal.S512 EltTy.i32)
local notation "rV" => (Memref.whole Cert.KernelIdeal.cc0_scratch1 : Memref Cert.KernelIdeal.sig Kind.scVector Space.vmem Cert.KernelIdeal.S512x128 EltTy.f32)

theorem ldiv : 32 ∣ S16384.size 0 := ⟨512, rfl⟩
theorem odiv : 32 ∣ S16384x128.size 0 := ⟨512, rfl⟩
/-- Block `w` of the labels and of the result: rows `[512 w, 512 w + 512)`. -/
abbrev lrow (w : Fin 32) : Rect S16384 := Rect.part (s := S16384) (a₀ := 0) ldiv w
abbrev orow (w : Fin 32) : Rect S16384x128 := Rect.part (s := S16384x128) (a₀ := 0) odiv w
abbrev lRowSet (w : Fin 32) : Finset S16384.Idx := ((lV).view.slice (lrow w)).set
abbrev oRowSet (w : Fin 32) : Finset S16384x128.Idx := ((oV).view.slice (orow w)).set

/-- The worker number of subcore `s` of SparseCore `c`: `2 s + c`. -/
def wOf (c : Fin 2) (s : Fin 16) : Fin 32 := ⟨2 * s.val + c.val, by omega⟩

/-- Worker `w`'s read token of the table, and what is left of the full ownership after thirty-two tokens. -/
abbrev tq (w : Fin 32) : PosShare TreeShare := Transfers.shareTok fullShare 32 w
abbrev tqRest : PosShare TreeShare := Transfers.shareDrop fullShare 32

variable [FloatOps F]

/-! ## What the handshakes carry -/

/-- The result the specification asks for on device `d`: row `r` is the table's row numbered by label `r`. -/
def Gout (d : Dev nD) : Buf (Elt F) (oLoc d) := Cert.Spec.lookup (m (lLoc d)) (m (tLoc d))

abbrev lPts (d : Dev nD) : sProp 𝕄 := lLoc d ↦{fullShare} m (lLoc d)
abbrev aPts (d : Dev nD) : sProp 𝕄 := aLoc d ↦{fullShare} m (aLoc d)
abbrev tPts (d : Dev nD) : sProp 𝕄 := tLoc d ↦{fullShare} m (tLoc d)
abbrev oPts (d : Dev nD) (f : Buf (Elt F) (oLoc d)) : sProp 𝕄 := oLoc d ↦{fullShare} f
abbrev lRowPts (d : Dev nD) (w : Fin 32) : sProp 𝕄 := lLoc d ↦[lRowSet w]{fullShare} m (lLoc d)
abbrev tShPts (d : Dev nD) (w : Fin 32) : sProp 𝕄 := tLoc d ↦{tq w} m (tLoc d)
abbrev oRowPts (d : Dev nD) (w : Fin 32) (f : Buf (Elt F) (oLoc d)) : sProp 𝕄 := oLoc d ↦[oRowSet w]{fullShare} f

/-- What worker `w` is handed: its block of the labels, its token of the table, its block of the result as launched; -/
abbrev goRes (d : Dev nD) (w : Fin 32) : sProp 𝕄 := iprop(lRowPts m d w ∗ tShPts m d w ∗ oRowPts d w (m (oLoc d)))
/-- and what it hands back: the same, its block of the result now the specification's. -/
abbrev tdRes (d : Dev nD) (w : Fin 32) : sProp 𝕄 := iprop(lRowPts m d w ∗ tShPts m d w ∗ oRowPts d w (Gout m d))

/-- A SparseCore is handed exactly what its sixteen subcores are, all at once. -/
def P : (K (F := F)).Pay (nD := nD) (Val := Elt F) (Name := ℕ) (U := UU) where
  st := fun q d c => match q with
    | 0 => bigSep Finset.univ fun i : Fin ((K (F := F)).nSub 0) => goRes m d (wOf (Fin.cast nCore_zero c) (Fin.cast nSub_zero i))
  dn := fun q d c => match q with
    | 0 => bigSep Finset.univ fun i : Fin ((K (F := F)).nSub 0) => tdRes m d (wOf (Fin.cast nCore_zero c) (Fin.cast nSub_zero i))
  go := fun q d c i => match q with | 0 => goRes m d (wOf (Fin.cast nCore_zero c) (Fin.cast nSub_zero i))
  td := fun q d c i => match q with | 0 => tdRes m d (wOf (Fin.cast nCore_zero c) (Fin.cast nSub_zero i))
  x := fun _ _ => iprop(emp)

instance P_storable : (P (F := F) m).IsStorable where
  st q d c := match q with
    | 0 => (inferInstance : BI.Storable (upEmb : UEmb _ 𝕄)
      (bigSep Finset.univ fun i : Fin ((K (F := F)).nSub 0) => goRes m d (wOf (Fin.cast nCore_zero c) (Fin.cast nSub_zero i))))
  dn q d c := match q with
    | 0 => (inferInstance : BI.Storable (upEmb : UEmb _ 𝕄)
      (bigSep Finset.univ fun i : Fin ((K (F := F)).nSub 0) => tdRes m d (wOf (Fin.cast nCore_zero c) (Fin.cast nSub_zero i))))
  go q d c i := match q with
    | 0 => (inferInstance : BI.Storable (upEmb : UEmb _ 𝕄) (goRes m d (wOf (Fin.cast nCore_zero c) (Fin.cast nSub_zero i))))
  td q d c i := match q with
    | 0 => (inferInstance : BI.Storable (upEmb : UEmb _ 𝕄) (tdRes m d (wOf (Fin.cast nCore_zero c) (Fin.cast nSub_zero i))))

/-- What the proof asks of the launch memory: every label is at most 999999, so names a row of the table. -/
def PreOK : Prop := ∀ (d : Dev nD) (j : S16384.Idx), (m (lLoc d) j).toNat ≤ 999999

end Cert.Proof.KI

end
-- ==== Proof.KITile.lean ====
/-
  One worker's view of the arrays: the block of labels and the block of the result it addresses, as the program
  slices them, are blocks `w = 2 s + c` of the thirty-two equal blocks; and the subcore's own buffers and semaphores,
  named among everything the subcore owns.
-/
import proofs.«209772_g1726576855934_cont_week2b_1416_16_alg».proof.Proof.KISetup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "lV" => (Memref.whole Cert.KernelIdeal.main_arg0_scv : Memref Cert.KernelIdeal.sig Kind.scVector Space.hbm Cert.KernelIdeal.S16384 EltTy.i32)
local notation "tV" => (Memref.whole Cert.KernelIdeal.main_arg2_scv : Memref Cert.KernelIdeal.sig Kind.scVector Space.hbm Cert.KernelIdeal.S1000001x128 EltTy.f32)
local notation "oV" => (Memref.whole Cert.KernelIdeal.main_v0_scv : Memref Cert.KernelIdeal.sig Kind.scVector Space.hbm Cert.KernelIdeal.S16384x128 EltTy.f32)
local notation "sV" => (Memref.whole Cert.KernelIdeal.cc0_scratch0 : Memref Cert.KernelIdeal.sig Kind.scVector Space.vmem Cert.KernelIdeal.S512 EltTy.i32)
local notation "rV" => (Memref.whole Cert.KernelIdeal.cc0_scratch1 : Memref Cert.KernelIdeal.sig Kind.scVector Space.vmem Cert.KernelIdeal.S512x128 EltTy.f32)

variable (m : (ℓ : Loc nD τ sig) → Buf (Elt F) ℓ)

section Tile

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
/-- The worker number of the subcore at grid coordinates `L`. -/
def wL (L : grid0.Coords) : Fin 32 := ⟨2 * (L 1).val + (L 0).val, by
  have h0 : (L 0).val < 2 := (L 0).isLt
  have h1 : (L 1).val < 16 := (L 1).isLt
  omega⟩

abbrev lrowK (L : grid0.Coords) : Rect S16384 := Rect.unit (s := S16384) (k0_off1 L) S512.size (k0_off1_inb L)
abbrev orowK (L : grid0.Coords) : Rect S16384x128 := Rect.unit (s := S16384x128) (k0_off2 L) S512x128.size (k0_off2_inb L)
/-- The worker's block of the labels and of the result, and the whole table, as the program addresses them. -/
abbrev lRowK (L : grid0.Coords) : Memref sig .scVector .hbm S512 .i32 := (lV).slice (lrowK L) (fun _ => rfl)
abbrev oRowK (L : grid0.Coords) : Memref sig .scVector .hbm S512x128 .f32 := (oV).slice (orowK L) (fun _ => rfl)
abbrev tAllK : Memref sig .scVector .hbm S1000001x128 .f32 :=
  (tV).slice (Rect.unit (s := S1000001x128) ![0, 0] S1000001x128.size inb_S1000001x128_S1000001x128_0_0) (fun _ => rfl)

/-- The program's offset `1024 s + 512 c` is `512 (2 s + c)`: the worker's block is block `w` of thirty-two. -/
theorem lrowK_eq : lrowK L = lrow (wL L) := by
  unfold lrowK lrow Rect.part Rect.block
  congr 1 <;> funext a
  · rw [k0_off1_eq]
    match a with
    | 0 => simp [Shape.partIx, Shape.partSize, wL]; omega
  · match a with
    | 0 => simp [Shape.partSize]
theorem orowK_eq : orowK L = orow (wL L) := by
  unfold orowK orow Rect.part Rect.block
  congr 1 <;> funext a
  · rw [k0_off2_eq]
    match a with
    | 0 => simp [Shape.partIx, Shape.partSize, wL]; omega
    | 1 => simp [Shape.partIx, Shape.partSize]
  · match a with
    | 0 => simp [Shape.partSize]
    | 1 => simp [Shape.partSize]

theorem set_lRowK : (lRowK L).view.set = lRowSet (wL L) := by
  show ((lV).view.slice (lrowK L)).set = ((lV).view.slice (lrow (wL L))).set
  rw [lrowK_eq]
theorem set_oRowK : (oRowK L).view.set = oRowSet (wL L) := by
  show ((oV).view.slice (orowK L)).set = ((oV).view.slice (orow (wL L))).set
  rw [orowK_eq]

theorem pts_lRowK (f : Buf (Elt F) (lLoc d)) :
    ((lRowK L).view.loc (V d (cV L) (jV L)) ↦[(lRowK L).view.set]{fullShare} f : sProp 𝕄) = lLoc d ↦[lRowSet (wL L)]{fullShare} f := by
  rw [set_lRowK]
theorem pts_oRowK (f : Buf (Elt F) (oLoc d)) :
    ((oRowK L).view.loc (V d (cV L) (jV L)) ↦[(oRowK L).view.set]{fullShare} f : sProp 𝕄) = oLoc d ↦[oRowSet (wL L)]{fullShare} f := by
  rw [set_oRowK]
theorem pts_tV (q : PosShare TreeShare) (f : Buf (Elt F) (tLoc d)) :
    ((tV).view.loc (V d (cV L) (jV L)) ↦{q} f : sProp 𝕄) = tLoc d ↦{q} f := rfl
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

/-- The subcore's three transfer semaphores: the gather's, the label copy's, the copy-out's. -/
abbrev cGcell (d : Dev nD) (c : Fin τ.nSC) (i : Fin τ.nSub) : GSem nD τ sig := (V d c i, .dma cc0_scratch2.sem)
abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)

theorem ownSems0_V :
    (ownSems0 (V d (cV L) (jV L)) : sProp 𝕄)
      = iprop(semVal (cGcell d (cV L) (jV L)) 0 ∗ semVal (cAcell d (cV L) (jV L)) 0 ∗ semVal (cBcell d (cV L) (jV L)) 0
          ∗ bigSep ((((ownCells (V d (cV L) (jV L))).erase (cGcell d (cV L) (jV L))).erase (cAcell d (cV L) (jV L))).erase (cBcell d (cV L) (jV L))) fun g => semVal g 0) := by
  unfold SparseCore.Cfg.ownSems0
  rw [SparseCore.bigSep_erase' ((mem_ownCells (g := cGcell d (cV L) (jV L))).mpr ⟨rfl, by
      show (SemLoc.dma cc0_scratch2.sem : SemLoc sig).isScoped .scVector = true; decide⟩),
    SparseCore.bigSep_erase' (Finset.mem_erase.mpr ⟨by simp [cGcell, cAcell]; decide, (mem_ownCells (g := cAcell d (cV L) (jV L))).mpr ⟨rfl, by
      show (SemLoc.dma cc0_scoped0.sem : SemLoc sig).isScoped .scVector = true; decide⟩⟩),
    SparseCore.bigSep_erase' (Finset.mem_erase.mpr ⟨by simp [cAcell, cBcell]; decide, Finset.mem_erase.mpr ⟨by simp [cGcell, cBcell]; decide,
      (mem_ownCells (g := cBcell d (cV L) (jV L))).mpr ⟨rfl, by show (SemLoc.dma cc0_scoped1.sem : SemLoc sig).isScoped .scVector = true; decide⟩⟩⟩)]

/-- The index buffer and the row buffer are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

end Tile

end Cert.Proof.KI

end
-- ==== Proof.KIValue.lean ====
/-
  The value a worker leaves in its block of the result.

  The worker's row buffer ends as the gather's payload: at `(k, q)` the table at row `(label 512 w + k)`, column `q`
  — the label read off the index buffer, which holds the worker's block of the labels; the copy-out puts entry `(k, q)`
  of the row buffer at `(512 w + k, q)` of the result. The specification at `(512 w + k, q)` is the table at the row
  label `512 w + k` names, column `q`: the same entry, since the label is at most 999999 and so names its own number.
-/
import proofs.«209772_g1726576855934_cont_week2b_1416_16_alg».proof.Proof.KITile
import Idealize.ShloMosaic.Lib.Pipeline.Value
import Idealize.ShloMosaic.Lib.Exec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "lV" => (Memref.whole Cert.KernelIdeal.main_arg0_scv : Memref Cert.KernelIdeal.sig Kind.scVector Space.hbm Cert.KernelIdeal.S16384 EltTy.i32)
local notation "tV" => (Memref.whole Cert.KernelIdeal.main_arg2_scv : Memref Cert.KernelIdeal.sig Kind.scVector Space.hbm Cert.KernelIdeal.S1000001x128 EltTy.f32)
local notation "oV" => (Memref.whole Cert.KernelIdeal.main_v0_scv : Memref Cert.KernelIdeal.sig Kind.scVector Space.hbm Cert.KernelIdeal.S16384x128 EltTy.f32)
local notation "sV" => (Memref.whole Cert.KernelIdeal.cc0_scratch0 : Memref Cert.KernelIdeal.sig Kind.scVector Space.vmem Cert.KernelIdeal.S512 EltTy.i32)
local notation "rV" => (Memref.whole Cert.KernelIdeal.cc0_scratch1 : Memref Cert.KernelIdeal.sig Kind.scVector Space.vmem Cert.KernelIdeal.S512x128 EltTy.f32)

variable (m : (ℓ : Loc nD τ sig) → Buf (Elt F) ℓ)
variable [FloatOps F]

section Tile
variable (d : Dev nD) (L : grid0.Coords)

/-- After the label copy the index buffer reads as the worker's block of the labels. -/
theorem idx_after (fs : Buf (Elt F) ((V d (cV L) (jV L)).loc cc0_scratch0)) :
    (sV).view.read (Elt F) (View.write (Elt F) (sV).view fs ((lRowK L).view.read (Elt F) (m (lLoc d))) Finset.univ)
      = (lRowK L).view.read (Elt F) (m (lLoc d)) :=
  View.read_write_univ _ _

/-- Entry `x` of the worker's block of the labels is the label at the block's embedded index. -/
theorem lRow_read (x : S512.Idx) : (lRowK L).view.read (Elt F) (m (lLoc d)) x = m (lLoc d) ((lRowK L).view.emb x) :=
  (View.read_apply _ _).trans (cast_eq _ _)

/-- Every label the index buffer then holds names a row of the table: it is at most 999999, below 1000001. -/
theorem idx_in_range (hpre : PreOK m) (fs : Buf (Elt F) ((V d (cV L) (jV L)).loc cc0_scratch0)) (pay : S512.Idx → Elt F .i32)
    (hpay : pay = (lRowK L).view.read (Elt F) (m (lLoc d))) :
    ∀ x, ((sV).view.read (Elt F) (View.write (Elt F) (sV).view fs pay Finset.univ) x).toNat < S1000001x128.size gathers_S1000001x128_S512x128.axis := by
  subst hpay
  intro x
  rw [idx_after, lRow_read]
  exact Nat.lt_of_le_of_lt (hpre d _) (by decide)

/-- Entry `k` of the worker's block of the labels sits at position `512 w + k` of the labels, and entry `(k, q)` of its
    block of the result at `(512 w + k, q)`: both blocks start at the same row. -/
theorem lRow_emb_val (z : S512.Idx) : ((lRowK L).view.emb z 0).val = (k0_off2 L 0) + (z 0).val := by
  show (k0_off1 L 0) + 1 * (z 0).val = _
  rw [k0_off1_eq, k0_off2_eq]; simp
theorem oRow_emb_val0 (y : S512x128.Idx) : ((oRowK L).view.emb y 0).val = (k0_off2 L 0) + (y 0).val := by
  show (k0_off2 L 0) + 1 * (y 0).val = _
  omega
theorem oRow_emb_val1 (y : S512x128.Idx) : ((oRowK L).view.emb y 1).val = (y 1).val := by
  show (k0_off2 L 1) + 1 * (y 1).val = _
  rw [k0_off2_eq]; simp

/-- The `k`-th index of a one-axis array in row-major order has coordinate `k`. -/
theorem symm_val (k : Fin S512.numel) : ((S512.rowMajor.symm k) 0).val = k.val := by
  have h := Shape.rowMajor_val_one (d := ![512]) (S512.rowMajor.symm k)
  rw [Equiv.apply_symm_apply] at h
  exact h.symm

/-- On the worker's block, what the copy-out wrote is the specification. -/
theorem out_value (hpre : PreOK m) (fs : Buf (Elt F) ((V d (cV L) (jV L)).loc cc0_scratch0))
    (hn : S512.numel = S512x128.size gathers_S1000001x128_S512x128.axis')
    (hin : ∀ x, ((sV).view.read (Elt F) (View.write (Elt F) (sV).view fs ((lRowK L).view.read (Elt F) (m (lLoc d))) Finset.univ) x).toNat
      < S1000001x128.size gathers_S1000001x128_S512x128.axis)
    (X : S512x128.Idx → Elt F .f32)
    (hX : X = SparseCore.gatherPayload gathers_S1000001x128_S512x128 ((tAllK).view.read (Elt F) (m (tLoc d)))
      (SparseCore.rows ((sV).view.read (Elt F) (View.write (Elt F) (sV).view fs ((lRowK L).view.read (Elt F) (m (lLoc d))) Finset.univ)) hn hin)) :
    ∀ i ∈ (oRowK L).view.set, (oRowK L).view.writes (Elt F) (m (oLoc d)) [⟨Rect.whole S512x128, X⟩] i = Gout m d i := by
  intro i hi
  obtain ⟨y, rfl⟩ := View.exists_emb_of_mem_set _ hi
  have h1 : (oRowK L).view.writes (Elt F) (m (oLoc d)) [⟨Rect.whole S512x128, X⟩] ((oRowK L).view.emb y) = X y := by
    have h := congrFun (View.read_writes_whole (oRowK L).view (m (oLoc d)) X) y
    rw [View.read_apply] at h
    exact (cast_eq _ _).symm.trans h
  rw [h1, hX]
  show (tAllK).view.read (Elt F) (m (tLoc d)) (gathers_S1000001x128_S512x128.idx _ y) = _
  rw [View.read_apply]
  unfold Gout Cert.Spec.lookup
  refine (cast_eq _ _).trans (congrArg (m (tLoc d)) ?_)
  funext a
  apply Fin.ext
  match a with
  | ⟨0, _⟩ =>
    -- the row: the label the index buffer holds at the entry's own row, against the label the specification reads
    show 0 + 1 * (gathers_S1000001x128_S512x128.idx _ y gathers_S1000001x128_S512x128.axis).val = (Spec.rowNo _).val
    rw [Shape.Gathers.idx_axis, Nat.zero_add, Nat.one_mul]
    show ((sV).view.read (Elt F) (View.write (Elt F) (sV).view fs ((lRowK L).view.read (Elt F) (m (lLoc d))) Finset.univ)
      (S512.rowMajor.symm ((y gathers_S1000001x128_S512x128.axis').cast hn.symm))).toNat = (Spec.rowNo _).val
    rw [idx_after, lRow_read, Spec.rowNo_val (hpre d _)]
    refine congrArg (fun z => (m (lLoc d) z).toNat) ?_
    funext b
    apply Fin.ext
    match b with
    | ⟨0, _⟩ =>
      refine (lRow_emb_val L _).trans ?_
      rw [symm_val]
      exact (oRow_emb_val0 L y).symm
  | ⟨1, h1'⟩ =>
    -- the column: the entry's own
    show 0 + 1 * (gathers_S1000001x128_S512x128.idx _ y ⟨1, h1'⟩).val = ((oRowK L).view.emb y 1).val
    rw [Shape.Gathers.idx_of_ne _ _ _ ⟨1, h1'⟩ Nat.one_ne_zero, oRow_emb_val1, Nat.zero_add, Nat.one_mul]
    rfl

end Tile

end Cert.Proof.KI

end
-- ==== Proof.KIBody.lean ====
/-
  One worker's task, run once at symbolic grid coordinates `(c, s)`.

  The worker holds its block of the labels, a read token of the table, its block of the result, and its own two
  buffers and three transfer semaphores at zero. Three copies, each waited for before the next starts: the block of
  labels into the index buffer; the table's rows those labels name into the row buffer (every label is at most 999999,
  so every entry of the index list names a row and the copy completes); the row buffer out to the block of the result.
  The worker gives back what it held, its block of the result now holding the specification's values.
-/
import proofs.«209772_g1726576855934_cont_week2b_1416_16_alg».proof.Proof.KIValue

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "lV" => (Memref.whole Cert.KernelIdeal.main_arg0_scv : Memref Cert.KernelIdeal.sig Kind.scVector Space.hbm Cert.KernelIdeal.S16384 EltTy.i32)
local notation "tV" => (Memref.whole Cert.KernelIdeal.main_arg2_scv : Memref Cert.KernelIdeal.sig Kind.scVector Space.hbm Cert.KernelIdeal.S1000001x128 EltTy.f32)
local notation "oV" => (Memref.whole Cert.KernelIdeal.main_v0_scv : Memref Cert.KernelIdeal.sig Kind.scVector Space.hbm Cert.KernelIdeal.S16384x128 EltTy.f32)
local notation "sV" => (Memref.whole Cert.KernelIdeal.cc0_scratch0 : Memref Cert.KernelIdeal.sig Kind.scVector Space.vmem Cert.KernelIdeal.S512 EltTy.i32)
local notation "rV" => (Memref.whole Cert.KernelIdeal.cc0_scratch1 : Memref Cert.KernelIdeal.sig Kind.scVector Space.vmem Cert.KernelIdeal.S512x128 EltTy.f32)

variable (m : (ℓ : Loc nD τ sig) → Buf (Elt F) ℓ)
variable [FloatOps F]

section Tile
variable (d : Dev nD) (L : grid0.Coords)

set_option maxHeartbeats 4000000 in
/-- The task on vector subcore `(L 0, L 1)` of device `d`. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ (lRowPts m d (wL L) ∗ tShPts m d (wL L) ∗ oRowPts d (wL L) (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_kernel L lV (Memref.isWhole_whole _) tV (Memref.isWhole_whole _) oV (Memref.isWhole_whole _)
            sV (Memref.isWhole_whole _) rV (Memref.isWhole_whole _) cc0_scratch2 cc0_scoped0 cc0_scoped1)
          fun _ => iprop((lRowPts m d (wL L) ∗ tShPts m d (wL L) ∗ oRowPts d (wL L) (Gout m d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_gather_kernel_eq_skeleton]; unfold cc0_gather_kernel_skel
  rw [(K (F := F)).scopedBufs_V hF d (cV L) (jV L), SparseCore.Cfg.scopedSems0_V (Val := Elt F) d (cV L) (jV L), ownSems0_V, ownBufs_V]
  iintro ⟨#Hlv, -, ⟨Hl, Ht, Ho⟩, ⟨⟨%fs, Hs⟩, ⟨%fr, Hr⟩, Hbufs⟩, ⟨HsemG, HsemA, HsemB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hl' := (Entails.of_eq (pts_lRowK (F := F) d L _).symm) $$ Hl
  ihave Ho' := (Entails.of_eq (pts_oRowK (F := F) d L _).symm) $$ Ho
  ihave Ht' := (Entails.of_eq (pts_tV (F := F) d L _ _).symm) $$ Ht
  ihave Hs' := (Entails.of_eq (pts_sV (F := F) d L _).symm) $$ Hs
  ihave Hr' := (Entails.of_eq (pts_rV (F := F) d L _).symm) $$ Hr
  -- the label copy and its wait
  sl_exec
  -- every entry of the index list now names a row of the table: the indexed copy, its wait, the copy-out, its wait
  have hin := idx_in_range m d L hpre fs (tile_body.sl.dma0 m d L) rfl
  sl_exec
  sl_step
  -- on the worker's block, what the copy-out wrote is the specification
  have hX : tile_body.sl.dma0_1 m d L fs fr hin = tile_body.sl.gather0 m d L fs hin := View.read_writes_whole (rV).view fr _
  have hval := out_value m d L hpre fs _ hin (tile_body.sl.dma0_1 m d L fs fr hin) (hX.trans rfl)
  ihave Ho2 := (Entails.of_eq (pointsTo_congr (ℓ := (oRowK L).view.loc (V d (cV L) (jV L))) (q := fullShare) hval)) $$ Ho'
  isplitl [Hl' Ht' Ho2]
  · isplitl [Hl']; · iapply (Entails.of_eq (pts_lRowK (F := F) d L _)); iexact Hl'
    isplitl [Ht']; · iexact Ht'
    iapply (Entails.of_eq (pts_oRowK (F := F) d L _)); iexact Ho2
  isplitl [Hs' Hr' Hbufs]
  · isplitl [Hs']; · iexists _; iexact Hs'
    isplitl [Hr']; · iexists _; iexact Hr'
    iexact Hbufs
  isplitl [HsemG HsemA HsemB Hsems]
  · isplitl [HsemG]; · iexact HsemG
    isplitl [HsemA]; · iexact HsemA
    isplitl [HsemB]; · iexact HsemB
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_kernel (coordsV c s)
          lV (Memref.isWhole_whole _) tV (Memref.isWhole_whole _) oV (Memref.isWhole_whole _)
          sV (Memref.isWhole_whole _) rV (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

end Tile

end Cert.Proof.KI

end
-- ==== Proof.KILaunch.lean ====
/-
  The launch: how the arrays are dealt to the thirty-two workers and gathered again, and the program's run.

  The TensorCore holds the labels, the table and the result whole. It cuts the labels and the result into the thirty-two
  blocks of 512 rows and the table's ownership into thirty-two read tokens and a remainder it keeps; worker `2 s + c`
  is subcore `s` of SparseCore `c`, so the blocks regroup as two families of sixteen, one per SparseCore, and a
  SparseCore passes its sixteen on unchanged. The workers return their blocks of the result holding the specification's
  values on their own rows; the blocks being disjoint and covering every row, the result is the specification's everywhere.
-/
import proofs.«209772_g1726576855934_cont_week2b_1416_16_alg».proof.Proof.KIBody

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "lV" => (Memref.whole Cert.KernelIdeal.main_arg0_scv : Memref Cert.KernelIdeal.sig Kind.scVector Space.hbm Cert.KernelIdeal.S16384 EltTy.i32)
local notation "tV" => (Memref.whole Cert.KernelIdeal.main_arg2_scv : Memref Cert.KernelIdeal.sig Kind.scVector Space.hbm Cert.KernelIdeal.S1000001x128 EltTy.f32)
local notation "oV" => (Memref.whole Cert.KernelIdeal.main_v0_scv : Memref Cert.KernelIdeal.sig Kind.scVector Space.hbm Cert.KernelIdeal.S16384x128 EltTy.f32)
local notation "sV" => (Memref.whole Cert.KernelIdeal.cc0_scratch0 : Memref Cert.KernelIdeal.sig Kind.scVector Space.vmem Cert.KernelIdeal.S512 EltTy.i32)
local notation "rV" => (Memref.whole Cert.KernelIdeal.cc0_scratch1 : Memref Cert.KernelIdeal.sig Kind.scVector Space.vmem Cert.KernelIdeal.S512x128 EltTy.f32)

variable (m : (ℓ : Loc nD τ sig) → Buf (Elt F) ℓ) (ρ : Dev nD → PrngReg)

/-! ## Workers as pairs -/

/-- Worker numbers `2 s + c` enumerate the pairs (SparseCore, subcore). -/
def wEquiv : Fin 2 × Fin 16 ≃ Fin 32 where
  toFun p := wOf p.1 p.2
  invFun w := (⟨w.val % 2, Nat.mod_lt _ (by decide)⟩, ⟨w.val / 2, by have := w.isLt; omega⟩)
  left_inv p := by
    obtain ⟨c, s⟩ := p
    apply Prod.ext <;> apply Fin.ext <;> simp [wOf] <;> omega
  right_inv w := by apply Fin.ext; simp [wOf]; omega

/-- A family over the workers is the family over the SparseCores of the families over their subcores. -/
theorem bigSep_workers (Φ : Fin 32 → sProp 𝕄) :
    (bigSep Finset.univ fun c : Fin ((K (F := F)).nCore 0) => bigSep Finset.univ fun i : Fin ((K (F := F)).nSub 0) =>
        Φ (wOf (Fin.cast nCore_zero c) (Fin.cast nSub_zero i))) = bigSep Finset.univ Φ := by
  rw [bigSep_univ_equiv wEquiv Φ, bigSep_univ_prod]
  rfl

variable [FloatOps F]

/-! ## A SparseCore passes on what it is handed -/

theorem vecSplit : (K (F := F)).VecSplit' (P m) 0 := by
  intro d c
  show (bigSep Finset.univ fun i : Fin ((K (F := F)).nSub 0) => goRes m d (wOf (Fin.cast nCore_zero c) (Fin.cast nSub_zero i)))
      ⊢ |={Set.univ}=> iprop((bigSep Finset.univ fun i : Fin ((K (F := F)).nSub 0) => goRes m d (wOf (Fin.cast nCore_zero c) (Fin.cast nSub_zero i)))
        ∗ ((bigSep Finset.univ fun i : Fin ((K (F := F)).nSub 0) => tdRes m d (wOf (Fin.cast nCore_zero c) (Fin.cast nSub_zero i)))
            -∗ (bigSep Finset.univ fun i : Fin ((K (F := F)).nSub 0) => tdRes m d (wOf (Fin.cast nCore_zero c) (Fin.cast nSub_zero i)))))
  iintro H; imodintro
  isplitl [H]; · iexact H
  iintro H; iexact H

/-! ## The blocks split and join; the table's tokens -/

omit [FloatOps F] in
theorem lRowSet_eq (w : Fin 32) : lRowSet w = (lrow w).set := by
  show ((View.whole (main_arg0_scv : Ref sig .scVector)).slice (lrow w)).set = _
  rw [View.set_slice]; exact Finset.map_refl
omit [FloatOps F] in
theorem oRowSet_eq (w : Fin 32) : oRowSet w = (orow w).set := by
  show ((View.whole (main_v0_scv : Ref sig .scVector)).slice (orow w)).set = _
  rw [View.set_slice]; exact Finset.map_refl
omit [FloatOps F] in
theorem lrows_disjoint : ∀ i ∈ (Finset.univ : Finset (Fin 32)), ∀ j ∈ (Finset.univ : Finset (Fin 32)), i ≠ j → Disjoint (lRowSet i) (lRowSet j) :=
  fun i _ j _ h => by rw [lRowSet_eq, lRowSet_eq]; exact Rect.part_disjoint ldiv h
omit [FloatOps F] in
theorem orows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h
omit [FloatOps F] in
theorem lrows_cover : (Finset.univ : Finset (Fin 32)).biUnion lRowSet = Finset.univ :=
  (Finset.biUnion_congr rfl fun i _ => lRowSet_eq i).trans (Rect.biUnion_part ldiv)
omit [FloatOps F] in
theorem orows_cover : (Finset.univ : Finset (Fin 32)).biUnion oRowSet = Finset.univ :=
  (Finset.biUnion_congr rfl fun i _ => oRowSet_eq i).trans (Rect.biUnion_part odiv)

omit [FloatOps F] in
theorem lPts_rows (d : Dev nD) (f : Buf (Elt F) (lLoc d)) :
    (lLoc d ↦{fullShare} f : sProp 𝕄) = bigSep Finset.univ fun w : Fin 32 => lLoc d ↦[lRowSet w]{fullShare} f := by
  rw [← pointsTo_biUnion Finset.univ (ℓ := lLoc d) lRowSet lrows_disjoint, lrows_cover]; try rfl
omit [FloatOps F] in
theorem oPts_rows (d : Dev nD) (f : Buf (Elt F) (oLoc d)) :
    (oLoc d ↦{fullShare} f : sProp 𝕄) = bigSep Finset.univ fun w : Fin 32 => oLoc d ↦[oRowSet w]{fullShare} f := by
  rw [← pointsTo_biUnion Finset.univ (ℓ := oLoc d) oRowSet orows_disjoint, orows_cover]; try rfl
omit [FloatOps F] in
/-- The table's full ownership is thirty-two read tokens and a remainder. -/
theorem tPts_toks (d : Dev nD) (f : Buf (Elt F) (tLoc d)) :
    (tLoc d ↦{fullShare} f : sProp 𝕄) ⊣⊢ iprop((tLoc d ↦{tqRest} f) ∗ bigSep Finset.univ fun w : Fin 32 => tLoc d ↦{tq w} f) :=
  Transfers.pointsTo_toks fullShare 32

omit [FloatOps F] in
/-- What the workers hold together, array by array. -/
theorem res_split (d : Dev nD) (f : Buf (Elt F) (oLoc d)) :
    (bigSep Finset.univ fun w : Fin 32 => iprop(lRowPts m d w ∗ tShPts m d w ∗ oRowPts d w f))
      = iprop(lPts m d ∗ (bigSep Finset.univ fun w : Fin 32 => tShPts m d w) ∗ oPts d f) := by
  rw [bigSep_sep', bigSep_sep']
  unfold lPts oPts lRowPts oRowPts
  rw [lPts_rows, oPts_rows]

/-! ## The launch element of the certificate's ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄)
      = iprop((lLoc d ↦{fullShare} W main_arg0) ∗ (aLoc d ↦{fullShare} W main_arg1) ∗ (tLoc d ↦{fullShare} W main_arg2) ∗ oLoc d ↦{fullShare} W main_v0) := by
  unfold unscopedBufs
  rw [show (Finset.univ.filter fun b : Ref sig .tc => ¬ b.isScoped) = {main_arg0, main_arg1, main_arg2, main_v0} by decide,
    SparseCore.bigSep_insert' (by decide), SparseCore.bigSep_insert' (by decide), SparseCore.bigSep_insert' (by decide), bigSep_singleton]

theorem st0_eq (d : Dev nD) :
    (bigSep Finset.univ fun c : Fin ((K (F := F)).nCore 0) => (P m).st 0 d c) = bigSep Finset.univ fun w : Fin 32 => goRes m d w :=
  bigSep_workers (fun w => goRes m d w)
theorem dn0_eq (d : Dev nD) :
    (bigSep Finset.univ fun c : Fin ((K (F := F)).nCore 0) => (P m).dn 0 d c) = bigSep Finset.univ fun w : Fin 32 => tdRes m d w :=
  bigSep_workers (fun w => tdRes m d w)

/-- What the TensorCore ends with: the three arguments as launched, the result the specification's. -/
abbrev FIN (d : Dev nD) : sProp 𝕄 := iprop(lPts m d ∗ aPts m d ∗ tPts m d ∗ oPts d (Gout m d))

/-- @main on device `d`'s TensorCore: the one call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hl, Harg, Ht, Ho⟩, -, -⟩, -⟩
  ihave Ht2 := (tPts_toks d _).1 $$ Ht
  icases Ht2 with ⟨Hrest, Htt⟩
  iapply ((K (F := F)).wp_run (D (F := F)) 𝒱 (EH := EH) (P := P m) κ d 0) $$ [Hst Hl Htt Ho Harg Hrest]
  isplitr; · iexact Hctx
  isplitl [Hst]; · iexact Hst
  isplitl [Hl Htt Ho]
  · rw [st0_eq, res_split]
    isplitl [Hl]; · iexact Hl
    isplitl [Htt]; · iexact Htt
    iexact Ho
  iintro ⟨Hst, Hdn⟩
  ihave Hdn' := (Entails.of_eq ((dn0_eq m d).trans (res_split m d (Gout m d)))) $$ Hdn
  icases Hdn' with ⟨Hl, Htt, Ho⟩
  ihave Ht := (tPts_toks d _).2 $$ [Hrest Htt]; · isplitl [Hrest] <;> iassumption
  imodintro
  isplitl [Hst]; · iexact Hst
  isplitl [Hl]; · iexact Hl
  isplitl [Harg]; · iexact Harg
  isplitl [Ht]; · iexact Ht
  iexact Ho

def fq (d : Dev nD) (s' : Phys nD τ sig (Elt F)) : Prop :=
  s'.mem.mem (oLoc d) = Gout m d ∧ s'.mem.mem (lLoc d) = m (lLoc d) ∧ s'.mem.mem (aLoc d) = m (aLoc d) ∧ s'.mem.mem (tLoc d) = m (tLoc d)

set_option maxRecDepth 16384 in
theorem hfin (d : Dev nD) (s' : Phys nD τ sig (Elt F)) : iprop(FIN m d ∗ SI s') ⊢ (⌜fq m d s'⌝ : sProp 𝕄) := by
  iintro ⟨⟨Hl, Ha, Ht, Ho⟩, HSI⟩
  ihave H := (persistent_entails_right (SI_pointsTo_agree (st := s') (ℓ := lLoc d) (I := Finset.univ) (q := fullShare) (f := m (lLoc d)))) $$ [HSI Hl]
  · isplitl [HSI] <;> iassumption
  icases H with ⟨%h1, HSI, -⟩
  ihave H := (persistent_entails_right (SI_pointsTo_agree (st := s') (ℓ := aLoc d) (I := Finset.univ) (q := fullShare) (f := m (aLoc d)))) $$ [HSI Ha]
  · isplitl [HSI] <;> iassumption
  icases H with ⟨%h2, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h3, HSI, -⟩
  ihave H := (SI_pointsTo_agree (st := s') (ℓ := oLoc d) (I := Finset.univ) (q := fullShare) (f := Gout m d)) $$ [HSI Ho]
  · isplitl [HSI] <;> iassumption
  icases H with %h4
  ipureintro
  exact ⟨funext fun i => h4 i (Finset.mem_univ i), funext fun i => h1 i (Finset.mem_univ i), funext fun i => h2 i (Finset.mem_univ i),
    funext fun i => h3 i (Finset.mem_univ i)⟩

/-! ## The program's run -/

/-- The run's post: on every device the result is the specification's and the three arguments are as launched. -/
def QC : PUnit × MemSt nD τ sig (Elt F) → Prop := fun r => ∀ c : Dev nD,
  r.2.mem (oLoc c) = Gout m c ∧ r.2.mem (lLoc c) = m (lLoc c) ∧ r.2.mem (aLoc c) = m (aLoc c) ∧ r.2.mem (tLoc c) = m (tLoc c)

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KI

end
-- ==== Proof.KNSetup.lean ====
/-
  The lookup kernel as the launch theorem sees it, and what its threads hand one another.

  Thirty-two vector subcores (two SparseCores of sixteen) each own one block of 512 consecutive rows: subcore `s` of
  SparseCore `c` is worker `w = 2 s + c` and owns rows `[512 w, 512 w + 512)` of the labels and of the result. A worker
  copies its 512 labels into its own index buffer, has the table's rows those labels name copied into its own row buffer,
  and copies that buffer out to its block of the result. Every worker reads the whole table, so the table is handed out
  as thirty-two read tokens (shares of the full ownership) and a remainder the TensorCore keeps; the labels and the
  result are handed out block by block. A worker returns its label block and its token unchanged and its result block
  holding the specification's values.
-/
import proofs.«209772_g1726576855934_cont_week2b_1416_16_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«209772_g1726576855934_cont_week2b_1416_16_alg».proof.Proof.Gen.Kernel
import proofs.«209772_g1726576855934_cont_week2b_1416_16_alg».proof.Proof.Gen.Kernel.Skeleton
import proofs.«209772_g1726576855934_cont_week2b_1416_16_alg».proof.Proof.Spec

noncomputable section

namespace Cert.Proof.KN

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory, the arrays and their blocks -/

variable (m : (ℓ : Loc nD τ sig) → Buf (Elt F) ℓ) (ρ : Dev nD → PrngReg)

/-- The labels, the unused scalar argument, the table and the result, on device `d`. -/
abbrev lLoc (d : Dev nD) : Loc nD τ sig := (SparseCore.T d).loc main_arg0
abbrev aLoc (d : Dev nD) : Loc nD τ sig := (SparseCore.T d).loc main_arg1
abbrev tLoc (d : Dev nD) : Loc nD τ sig := (SparseCore.T d).loc main_arg2
abbrev oLoc (d : Dev nD) : Loc nD τ sig := (SparseCore.T d).loc main_v0

local notation "lV" => (Memref.whole Cert.Kernel.main_arg0_scv : Memref Cert.Kernel.sig Kind.scVector Space.hbm Cert.Kernel.S16384 EltTy.i32)
local notation "tV" => (Memref.whole Cert.Kernel.main_arg2_scv : Memref Cert.Kernel.sig Kind.scVector Space.hbm Cert.Kernel.S1000001x128 EltTy.f32)
local notation "oV" => (Memref.whole Cert.Kernel.main_v0_scv : Memref Cert.Kernel.sig Kind.scVector Space.hbm Cert.Kernel.S16384x128 EltTy.f32)
local notation "sV" => (Memref.whole Cert.Kernel.cc0_scratch0 : Memref Cert.Kernel.sig Kind.scVector Space.vmem Cert.Kernel.S512 EltTy.i32)
local notation "rV" => (Memref.whole Cert.Kernel.cc0_scratch1 : Memref Cert.Kernel.sig Kind.scVector Space.vmem Cert.Kernel.S512x128 EltTy.f32)

theorem ldiv : 32 ∣ S16384.size 0 := ⟨512, rfl⟩
theorem odiv : 32 ∣ S16384x128.size 0 := ⟨512, rfl⟩
/-- Block `w` of the labels and of the result: rows `[512 w, 512 w + 512)`. -/
abbrev lrow (w : Fin 32) : Rect S16384 := Rect.part (s := S16384) (a₀ := 0) ldiv w
abbrev orow (w : Fin 32) : Rect S16384x128 := Rect.part (s := S16384x128) (a₀ := 0) odiv w
abbrev lRowSet (w : Fin 32) : Finset S16384.Idx := ((lV).view.slice (lrow w)).set
abbrev oRowSet (w : Fin 32) : Finset S16384x128.Idx := ((oV).view.slice (orow w)).set

/-- The worker number of subcore `s` of SparseCore `c`: `2 s + c`. -/
def wOf (c : Fin 2) (s : Fin 16) : Fin 32 := ⟨2 * s.val + c.val, by omega⟩

/-- Worker `w`'s read token of the table, and what is left of the full ownership after thirty-two tokens. -/
abbrev tq (w : Fin 32) : PosShare TreeShare := Transfers.shareTok fullShare 32 w
abbrev tqRest : PosShare TreeShare := Transfers.shareDrop fullShare 32

variable [FloatOps F]

/-! ## What the handshakes carry -/

/-- The result the specification asks for on device `d`: row `r` is the table's row numbered by label `r`. -/
def Gout (d : Dev nD) : Buf (Elt F) (oLoc d) := Cert.Spec.lookup (m (lLoc d)) (m (tLoc d))

abbrev lPts (d : Dev nD) : sProp 𝕄 := lLoc d ↦{fullShare} m (lLoc d)
abbrev aPts (d : Dev nD) : sProp 𝕄 := aLoc d ↦{fullShare} m (aLoc d)
abbrev tPts (d : Dev nD) : sProp 𝕄 := tLoc d ↦{fullShare} m (tLoc d)
abbrev oPts (d : Dev nD) (f : Buf (Elt F) (oLoc d)) : sProp 𝕄 := oLoc d ↦{fullShare} f
abbrev lRowPts (d : Dev nD) (w : Fin 32) : sProp 𝕄 := lLoc d ↦[lRowSet w]{fullShare} m (lLoc d)
abbrev tShPts (d : Dev nD) (w : Fin 32) : sProp 𝕄 := tLoc d ↦{tq w} m (tLoc d)
abbrev oRowPts (d : Dev nD) (w : Fin 32) (f : Buf (Elt F) (oLoc d)) : sProp 𝕄 := oLoc d ↦[oRowSet w]{fullShare} f

/-- What worker `w` is handed: its block of the labels, its token of the table, its block of the result as launched; -/
abbrev goRes (d : Dev nD) (w : Fin 32) : sProp 𝕄 := iprop(lRowPts m d w ∗ tShPts m d w ∗ oRowPts d w (m (oLoc d)))
/-- and what it hands back: the same, its block of the result now the specification's. -/
abbrev tdRes (d : Dev nD) (w : Fin 32) : sProp 𝕄 := iprop(lRowPts m d w ∗ tShPts m d w ∗ oRowPts d w (Gout m d))

/-- A SparseCore is handed exactly what its sixteen subcores are, all at once. -/
def P : (K (F := F)).Pay (nD := nD) (Val := Elt F) (Name := ℕ) (U := UU) where
  st := fun q d c => match q with
    | 0 => bigSep Finset.univ fun i : Fin ((K (F := F)).nSub 0) => goRes m d (wOf (Fin.cast nCore_zero c) (Fin.cast nSub_zero i))
  dn := fun q d c => match q with
    | 0 => bigSep Finset.univ fun i : Fin ((K (F := F)).nSub 0) => tdRes m d (wOf (Fin.cast nCore_zero c) (Fin.cast nSub_zero i))
  go := fun q d c i => match q with | 0 => goRes m d (wOf (Fin.cast nCore_zero c) (Fin.cast nSub_zero i))
  td := fun q d c i => match q with | 0 => tdRes m d (wOf (Fin.cast nCore_zero c) (Fin.cast nSub_zero i))
  x := fun _ _ => iprop(emp)

instance P_storable : (P (F := F) m).IsStorable where
  st q d c := match q with
    | 0 => (inferInstance : BI.Storable (upEmb : UEmb _ 𝕄)
      (bigSep Finset.univ fun i : Fin ((K (F := F)).nSub 0) => goRes m d (wOf (Fin.cast nCore_zero c) (Fin.cast nSub_zero i))))
  dn q d c := match q with
    | 0 => (inferInstance : BI.Storable (upEmb : UEmb _ 𝕄)
      (bigSep Finset.univ fun i : Fin ((K (F := F)).nSub 0) => tdRes m d (wOf (Fin.cast nCore_zero c) (Fin.cast nSub_zero i))))
  go q d c i := match q with
    | 0 => (inferInstance : BI.Storable (upEmb : UEmb _ 𝕄) (goRes m d (wOf (Fin.cast nCore_zero c) (Fin.cast nSub_zero i))))
  td q d c i := match q with
    | 0 => (inferInstance : BI.Storable (upEmb : UEmb _ 𝕄) (tdRes m d (wOf (Fin.cast nCore_zero c) (Fin.cast nSub_zero i))))

/-- What the proof asks of the launch memory: every label is at most 999999, so names a row of the table. -/
def PreOK : Prop := ∀ (d : Dev nD) (j : S16384.Idx), (m (lLoc d) j).toNat ≤ 999999

end Cert.Proof.KN

end
-- ==== Proof.KNTile.lean ====
/-
  One worker's view of the arrays: the block of labels and the block of the result it addresses, as the program
  slices them, are blocks `w = 2 s + c` of the thirty-two equal blocks; and the subcore's own buffers and semaphores,
  named among everything the subcore owns.
-/
import proofs.«209772_g1726576855934_cont_week2b_1416_16_alg».proof.Proof.KNSetup

noncomputable section

namespace Cert.Proof.KN

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "lV" => (Memref.whole Cert.Kernel.main_arg0_scv : Memref Cert.Kernel.sig Kind.scVector Space.hbm Cert.Kernel.S16384 EltTy.i32)
local notation "tV" => (Memref.whole Cert.Kernel.main_arg2_scv : Memref Cert.Kernel.sig Kind.scVector Space.hbm Cert.Kernel.S1000001x128 EltTy.f32)
local notation "oV" => (Memref.whole Cert.Kernel.main_v0_scv : Memref Cert.Kernel.sig Kind.scVector Space.hbm Cert.Kernel.S16384x128 EltTy.f32)
local notation "sV" => (Memref.whole Cert.Kernel.cc0_scratch0 : Memref Cert.Kernel.sig Kind.scVector Space.vmem Cert.Kernel.S512 EltTy.i32)
local notation "rV" => (Memref.whole Cert.Kernel.cc0_scratch1 : Memref Cert.Kernel.sig Kind.scVector Space.vmem Cert.Kernel.S512x128 EltTy.f32)

variable (m : (ℓ : Loc nD τ sig) → Buf (Elt F) ℓ)

section Tile

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
/-- The worker number of the subcore at grid coordinates `L`. -/
def wL (L : grid0.Coords) : Fin 32 := ⟨2 * (L 1).val + (L 0).val, by
  have h0 : (L 0).val < 2 := (L 0).isLt
  have h1 : (L 1).val < 16 := (L 1).isLt
  omega⟩

abbrev lrowK (L : grid0.Coords) : Rect S16384 := Rect.unit (s := S16384) (k0_off1 L) S512.size (k0_off1_inb L)
abbrev orowK (L : grid0.Coords) : Rect S16384x128 := Rect.unit (s := S16384x128) (k0_off2 L) S512x128.size (k0_off2_inb L)
/-- The worker's block of the labels and of the result, and the whole table, as the program addresses them. -/
abbrev lRowK (L : grid0.Coords) : Memref sig .scVector .hbm S512 .i32 := (lV).slice (lrowK L) (fun _ => rfl)
abbrev oRowK (L : grid0.Coords) : Memref sig .scVector .hbm S512x128 .f32 := (oV).slice (orowK L) (fun _ => rfl)
abbrev tAllK : Memref sig .scVector .hbm S1000001x128 .f32 :=
  (tV).slice (Rect.unit (s := S1000001x128) ![0, 0] S1000001x128.size inb_S1000001x128_S1000001x128_0_0) (fun _ => rfl)

/-- The program's offset `1024 s + 512 c` is `512 (2 s + c)`: the worker's block is block `w` of thirty-two. -/
theorem lrowK_eq : lrowK L = lrow (wL L) := by
  unfold lrowK lrow Rect.part Rect.block
  congr 1 <;> funext a
  · rw [k0_off1_eq]
    match a with
    | 0 => simp [Shape.partIx, Shape.partSize, wL]; omega
  · match a with
    | 0 => simp [Shape.partSize]
theorem orowK_eq : orowK L = orow (wL L) := by
  unfold orowK orow Rect.part Rect.block
  congr 1 <;> funext a
  · rw [k0_off2_eq]
    match a with
    | 0 => simp [Shape.partIx, Shape.partSize, wL]; omega
    | 1 => simp [Shape.partIx, Shape.partSize]
  · match a with
    | 0 => simp [Shape.partSize]
    | 1 => simp [Shape.partSize]

theorem set_lRowK : (lRowK L).view.set = lRowSet (wL L) := by
  show ((lV).view.slice (lrowK L)).set = ((lV).view.slice (lrow (wL L))).set
  rw [lrowK_eq]
theorem set_oRowK : (oRowK L).view.set = oRowSet (wL L) := by
  show ((oV).view.slice (orowK L)).set = ((oV).view.slice (orow (wL L))).set
  rw [orowK_eq]

theorem pts_lRowK (f : Buf (Elt F) (lLoc d)) :
    ((lRowK L).view.loc (V d (cV L) (jV L)) ↦[(lRowK L).view.set]{fullShare} f : sProp 𝕄) = lLoc d ↦[lRowSet (wL L)]{fullShare} f := by
  rw [set_lRowK]
theorem pts_oRowK (f : Buf (Elt F) (oLoc d)) :
    ((oRowK L).view.loc (V d (cV L) (jV L)) ↦[(oRowK L).view.set]{fullShare} f : sProp 𝕄) = oLoc d ↦[oRowSet (wL L)]{fullShare} f := by
  rw [set_oRowK]
theorem pts_tV (q : PosShare TreeShare) (f : Buf (Elt F) (tLoc d)) :
    ((tV).view.loc (V d (cV L) (jV L)) ↦{q} f : sProp 𝕄) = tLoc d ↦{q} f := rfl
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

/-- The subcore's three transfer semaphores: the gather's, the label copy's, the copy-out's. -/
abbrev cGcell (d : Dev nD) (c : Fin τ.nSC) (i : Fin τ.nSub) : GSem nD τ sig := (V d c i, .dma cc0_scratch2.sem)
abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)

theorem ownSems0_V :
    (ownSems0 (V d (cV L) (jV L)) : sProp 𝕄)
      = iprop(semVal (cGcell d (cV L) (jV L)) 0 ∗ semVal (cAcell d (cV L) (jV L)) 0 ∗ semVal (cBcell d (cV L) (jV L)) 0
          ∗ bigSep ((((ownCells (V d (cV L) (jV L))).erase (cGcell d (cV L) (jV L))).erase (cAcell d (cV L) (jV L))).erase (cBcell d (cV L) (jV L))) fun g => semVal g 0) := by
  unfold SparseCore.Cfg.ownSems0
  rw [SparseCore.bigSep_erase' ((mem_ownCells (g := cGcell d (cV L) (jV L))).mpr ⟨rfl, by
      show (SemLoc.dma cc0_scratch2.sem : SemLoc sig).isScoped .scVector = true; decide⟩),
    SparseCore.bigSep_erase' (Finset.mem_erase.mpr ⟨by simp [cGcell, cAcell]; decide, (mem_ownCells (g := cAcell d (cV L) (jV L))).mpr ⟨rfl, by
      show (SemLoc.dma cc0_scoped0.sem : SemLoc sig).isScoped .scVector = true; decide⟩⟩),
    SparseCore.bigSep_erase' (Finset.mem_erase.mpr ⟨by simp [cAcell, cBcell]; decide, Finset.mem_erase.mpr ⟨by simp [cGcell, cBcell]; decide,
      (mem_ownCells (g := cBcell d (cV L) (jV L))).mpr ⟨rfl, by show (SemLoc.dma cc0_scoped1.sem : SemLoc sig).isScoped .scVector = true; decide⟩⟩⟩)]

/-- The index buffer and the row buffer are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

end Tile

end Cert.Proof.KN

end
-- ==== Proof.KNValue.lean ====
/-
  The value a worker leaves in its block of the result.

  The worker's row buffer ends as the gather's payload: at `(k, q)` the table at row `(label 512 w + k)`, column `q`
  — the label read off the index buffer, which holds the worker's block of the labels; the copy-out puts entry `(k, q)`
  of the row buffer at `(512 w + k, q)` of the result. The specification at `(512 w + k, q)` is the table at the row
  label `512 w + k` names, column `q`: the same entry, since the label is at most 999999 and so names its own number.
-/
import proofs.«209772_g1726576855934_cont_week2b_1416_16_alg».proof.Proof.KNTile
import Idealize.ShloMosaic.Lib.Pipeline.Value
import Idealize.ShloMosaic.Lib.Exec

noncomputable section

namespace Cert.Proof.KN

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "lV" => (Memref.whole Cert.Kernel.main_arg0_scv : Memref Cert.Kernel.sig Kind.scVector Space.hbm Cert.Kernel.S16384 EltTy.i32)
local notation "tV" => (Memref.whole Cert.Kernel.main_arg2_scv : Memref Cert.Kernel.sig Kind.scVector Space.hbm Cert.Kernel.S1000001x128 EltTy.f32)
local notation "oV" => (Memref.whole Cert.Kernel.main_v0_scv : Memref Cert.Kernel.sig Kind.scVector Space.hbm Cert.Kernel.S16384x128 EltTy.f32)
local notation "sV" => (Memref.whole Cert.Kernel.cc0_scratch0 : Memref Cert.Kernel.sig Kind.scVector Space.vmem Cert.Kernel.S512 EltTy.i32)
local notation "rV" => (Memref.whole Cert.Kernel.cc0_scratch1 : Memref Cert.Kernel.sig Kind.scVector Space.vmem Cert.Kernel.S512x128 EltTy.f32)

variable (m : (ℓ : Loc nD τ sig) → Buf (Elt F) ℓ)
variable [FloatOps F]

section Tile
variable (d : Dev nD) (L : grid0.Coords)

/-- After the label copy the index buffer reads as the worker's block of the labels. -/
theorem idx_after (fs : Buf (Elt F) ((V d (cV L) (jV L)).loc cc0_scratch0)) :
    (sV).view.read (Elt F) (View.write (Elt F) (sV).view fs ((lRowK L).view.read (Elt F) (m (lLoc d))) Finset.univ)
      = (lRowK L).view.read (Elt F) (m (lLoc d)) :=
  View.read_write_univ _ _

/-- Entry `x` of the worker's block of the labels is the label at the block's embedded index. -/
theorem lRow_read (x : S512.Idx) : (lRowK L).view.read (Elt F) (m (lLoc d)) x = m (lLoc d) ((lRowK L).view.emb x) :=
  (View.read_apply _ _).trans (cast_eq _ _)

/-- Every label the index buffer then holds names a row of the table: it is at most 999999, below 1000001. -/
theorem idx_in_range (hpre : PreOK m) (fs : Buf (Elt F) ((V d (cV L) (jV L)).loc cc0_scratch0)) (pay : S512.Idx → Elt F .i32)
    (hpay : pay = (lRowK L).view.read (Elt F) (m (lLoc d))) :
    ∀ x, ((sV).view.read (Elt F) (View.write (Elt F) (sV).view fs pay Finset.univ) x).toNat < S1000001x128.size gathers_S1000001x128_S512x128.axis := by
  subst hpay
  intro x
  rw [idx_after, lRow_read]
  exact Nat.lt_of_le_of_lt (hpre d _) (by decide)

/-- Entry `k` of the worker's block of the labels sits at position `512 w + k` of the labels, and entry `(k, q)` of its
    block of the result at `(512 w + k, q)`: both blocks start at the same row. -/
theorem lRow_emb_val (z : S512.Idx) : ((lRowK L).view.emb z 0).val = (k0_off2 L 0) + (z 0).val := by
  show (k0_off1 L 0) + 1 * (z 0).val = _
  rw [k0_off1_eq, k0_off2_eq]; simp
theorem oRow_emb_val0 (y : S512x128.Idx) : ((oRowK L).view.emb y 0).val = (k0_off2 L 0) + (y 0).val := by
  show (k0_off2 L 0) + 1 * (y 0).val = _
  omega
theorem oRow_emb_val1 (y : S512x128.Idx) : ((oRowK L).view.emb y 1).val = (y 1).val := by
  show (k0_off2 L 1) + 1 * (y 1).val = _
  rw [k0_off2_eq]; simp

/-- The `k`-th index of a one-axis array in row-major order has coordinate `k`. -/
theorem symm_val (k : Fin S512.numel) : ((S512.rowMajor.symm k) 0).val = k.val := by
  have h := Shape.rowMajor_val_one (d := ![512]) (S512.rowMajor.symm k)
  rw [Equiv.apply_symm_apply] at h
  exact h.symm

/-- On the worker's block, what the copy-out wrote is the specification. -/
theorem out_value (hpre : PreOK m) (fs : Buf (Elt F) ((V d (cV L) (jV L)).loc cc0_scratch0))
    (hn : S512.numel = S512x128.size gathers_S1000001x128_S512x128.axis')
    (hin : ∀ x, ((sV).view.read (Elt F) (View.write (Elt F) (sV).view fs ((lRowK L).view.read (Elt F) (m (lLoc d))) Finset.univ) x).toNat
      < S1000001x128.size gathers_S1000001x128_S512x128.axis)
    (X : S512x128.Idx → Elt F .f32)
    (hX : X = SparseCore.gatherPayload gathers_S1000001x128_S512x128 ((tAllK).view.read (Elt F) (m (tLoc d)))
      (SparseCore.rows ((sV).view.read (Elt F) (View.write (Elt F) (sV).view fs ((lRowK L).view.read (Elt F) (m (lLoc d))) Finset.univ)) hn hin)) :
    ∀ i ∈ (oRowK L).view.set, (oRowK L).view.writes (Elt F) (m (oLoc d)) [⟨Rect.whole S512x128, X⟩] i = Gout m d i := by
  intro i hi
  obtain ⟨y, rfl⟩ := View.exists_emb_of_mem_set _ hi
  have h1 : (oRowK L).view.writes (Elt F) (m (oLoc d)) [⟨Rect.whole S512x128, X⟩] ((oRowK L).view.emb y) = X y := by
    have h := congrFun (View.read_writes_whole (oRowK L).view (m (oLoc d)) X) y
    rw [View.read_apply] at h
    exact (cast_eq _ _).symm.trans h
  rw [h1, hX]
  show (tAllK).view.read (Elt F) (m (tLoc d)) (gathers_S1000001x128_S512x128.idx _ y) = _
  rw [View.read_apply]
  unfold Gout Cert.Spec.lookup
  refine (cast_eq _ _).trans (congrArg (m (tLoc d)) ?_)
  funext a
  apply Fin.ext
  match a with
  | ⟨0, _⟩ =>
    -- the row: the label the index buffer holds at the entry's own row, against the label the specification reads
    show 0 + 1 * (gathers_S1000001x128_S512x128.idx _ y gathers_S1000001x128_S512x128.axis).val = (Spec.rowNo _).val
    rw [Shape.Gathers.idx_axis, Nat.zero_add, Nat.one_mul]
    show ((sV).view.read (Elt F) (View.write (Elt F) (sV).view fs ((lRowK L).view.read (Elt F) (m (lLoc d))) Finset.univ)
      (S512.rowMajor.symm ((y gathers_S1000001x128_S512x128.axis').cast hn.symm))).toNat = (Spec.rowNo _).val
    rw [idx_after, lRow_read, Spec.rowNo_val (hpre d _)]
    refine congrArg (fun z => (m (lLoc d) z).toNat) ?_
    funext b
    apply Fin.ext
    match b with
    | ⟨0, _⟩ =>
      refine (lRow_emb_val L _).trans ?_
      rw [symm_val]
      exact (oRow_emb_val0 L y).symm
  | ⟨1, h1'⟩ =>
    -- the column: the entry's own
    show 0 + 1 * (gathers_S1000001x128_S512x128.idx _ y ⟨1, h1'⟩).val = ((oRowK L).view.emb y 1).val
    rw [Shape.Gathers.idx_of_ne _ _ _ ⟨1, h1'⟩ Nat.one_ne_zero, oRow_emb_val1, Nat.zero_add, Nat.one_mul]
    rfl

end Tile

end Cert.Proof.KN

end
-- ==== Proof.KNBody.lean ====
/-
  One worker's task, run once at symbolic grid coordinates `(c, s)`.

  The worker holds its block of the labels, a read token of the table, its block of the result, and its own two
  buffers and three transfer semaphores at zero. Three copies, each waited for before the next starts: the block of
  labels into the index buffer; the table's rows those labels name into the row buffer (every label is at most 999999,
  so every entry of the index list names a row and the copy completes); the row buffer out to the block of the result.
  The worker gives back what it held, its block of the result now holding the specification's values.
-/
import proofs.«209772_g1726576855934_cont_week2b_1416_16_alg».proof.Proof.KNValue

noncomputable section

namespace Cert.Proof.KN

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "lV" => (Memref.whole Cert.Kernel.main_arg0_scv : Memref Cert.Kernel.sig Kind.scVector Space.hbm Cert.Kernel.S16384 EltTy.i32)
local notation "tV" => (Memref.whole Cert.Kernel.main_arg2_scv : Memref Cert.Kernel.sig Kind.scVector Space.hbm Cert.Kernel.S1000001x128 EltTy.f32)
local notation "oV" => (Memref.whole Cert.Kernel.main_v0_scv : Memref Cert.Kernel.sig Kind.scVector Space.hbm Cert.Kernel.S16384x128 EltTy.f32)
local notation "sV" => (Memref.whole Cert.Kernel.cc0_scratch0 : Memref Cert.Kernel.sig Kind.scVector Space.vmem Cert.Kernel.S512 EltTy.i32)
local notation "rV" => (Memref.whole Cert.Kernel.cc0_scratch1 : Memref Cert.Kernel.sig Kind.scVector Space.vmem Cert.Kernel.S512x128 EltTy.f32)

variable (m : (ℓ : Loc nD τ sig) → Buf (Elt F) ℓ)
variable [FloatOps F]

section Tile
variable (d : Dev nD) (L : grid0.Coords)

set_option maxHeartbeats 4000000 in
/-- The task on vector subcore `(L 0, L 1)` of device `d`. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ (lRowPts m d (wL L) ∗ tShPts m d (wL L) ∗ oRowPts d (wL L) (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_kernel L lV (Memref.isWhole_whole _) tV (Memref.isWhole_whole _) oV (Memref.isWhole_whole _)
            sV (Memref.isWhole_whole _) rV (Memref.isWhole_whole _) cc0_scratch2 cc0_scoped0 cc0_scoped1)
          fun _ => iprop((lRowPts m d (wL L) ∗ tShPts m d (wL L) ∗ oRowPts d (wL L) (Gout m d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_gather_kernel_eq_skeleton]; unfold cc0_gather_kernel_skel
  rw [(K (F := F)).scopedBufs_V hF d (cV L) (jV L), SparseCore.Cfg.scopedSems0_V (Val := Elt F) d (cV L) (jV L), ownSems0_V, ownBufs_V]
  iintro ⟨#Hlv, -, ⟨Hl, Ht, Ho⟩, ⟨⟨%fs, Hs⟩, ⟨%fr, Hr⟩, Hbufs⟩, ⟨HsemG, HsemA, HsemB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hl' := (Entails.of_eq (pts_lRowK (F := F) d L _).symm) $$ Hl
  ihave Ho' := (Entails.of_eq (pts_oRowK (F := F) d L _).symm) $$ Ho
  ihave Ht' := (Entails.of_eq (pts_tV (F := F) d L _ _).symm) $$ Ht
  ihave Hs' := (Entails.of_eq (pts_sV (F := F) d L _).symm) $$ Hs
  ihave Hr' := (Entails.of_eq (pts_rV (F := F) d L _).symm) $$ Hr
  -- the label copy and its wait
  sl_exec
  -- every entry of the index list now names a row of the table: the indexed copy, its wait, the copy-out, its wait
  have hin := idx_in_range m d L hpre fs (tile_body.sl.dma0 m d L) rfl
  sl_exec
  sl_step
  -- on the worker's block, what the copy-out wrote is the specification
  have hX : tile_body.sl.dma0_1 m d L fs fr hin = tile_body.sl.gather0 m d L fs hin := View.read_writes_whole (rV).view fr _
  have hval := out_value m d L hpre fs _ hin (tile_body.sl.dma0_1 m d L fs fr hin) (hX.trans rfl)
  ihave Ho2 := (Entails.of_eq (pointsTo_congr (ℓ := (oRowK L).view.loc (V d (cV L) (jV L))) (q := fullShare) hval)) $$ Ho'
  isplitl [Hl' Ht' Ho2]
  · isplitl [Hl']; · iapply (Entails.of_eq (pts_lRowK (F := F) d L _)); iexact Hl'
    isplitl [Ht']; · iexact Ht'
    iapply (Entails.of_eq (pts_oRowK (F := F) d L _)); iexact Ho2
  isplitl [Hs' Hr' Hbufs]
  · isplitl [Hs']; · iexists _; iexact Hs'
    isplitl [Hr']; · iexists _; iexact Hr'
    iexact Hbufs
  isplitl [HsemG HsemA HsemB Hsems]
  · isplitl [HsemG]; · iexact HsemG
    isplitl [HsemA]; · iexact HsemA
    isplitl [HsemB]; · iexact HsemB
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_kernel (coordsV c s)
          lV (Memref.isWhole_whole _) tV (Memref.isWhole_whole _) oV (Memref.isWhole_whole _)
          sV (Memref.isWhole_whole _) rV (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

end Tile

end Cert.Proof.KN

end
-- ==== Proof.KNLaunch.lean ====
/-
  The launch: how the arrays are dealt to the thirty-two workers and gathered again, and the program's run.

  The TensorCore holds the labels, the table and the result whole. It cuts the labels and the result into the thirty-two
  blocks of 512 rows and the table's ownership into thirty-two read tokens and a remainder it keeps; worker `2 s + c`
  is subcore `s` of SparseCore `c`, so the blocks regroup as two families of sixteen, one per SparseCore, and a
  SparseCore passes its sixteen on unchanged. The workers return their blocks of the result holding the specification's
  values on their own rows; the blocks being disjoint and covering every row, the result is the specification's everywhere.
-/
import proofs.«209772_g1726576855934_cont_week2b_1416_16_alg».proof.Proof.KNBody

noncomputable section

namespace Cert.Proof.KN

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "lV" => (Memref.whole Cert.Kernel.main_arg0_scv : Memref Cert.Kernel.sig Kind.scVector Space.hbm Cert.Kernel.S16384 EltTy.i32)
local notation "tV" => (Memref.whole Cert.Kernel.main_arg2_scv : Memref Cert.Kernel.sig Kind.scVector Space.hbm Cert.Kernel.S1000001x128 EltTy.f32)
local notation "oV" => (Memref.whole Cert.Kernel.main_v0_scv : Memref Cert.Kernel.sig Kind.scVector Space.hbm Cert.Kernel.S16384x128 EltTy.f32)
local notation "sV" => (Memref.whole Cert.Kernel.cc0_scratch0 : Memref Cert.Kernel.sig Kind.scVector Space.vmem Cert.Kernel.S512 EltTy.i32)
local notation "rV" => (Memref.whole Cert.Kernel.cc0_scratch1 : Memref Cert.Kernel.sig Kind.scVector Space.vmem Cert.Kernel.S512x128 EltTy.f32)

variable (m : (ℓ : Loc nD τ sig) → Buf (Elt F) ℓ) (ρ : Dev nD → PrngReg)

/-! ## Workers as pairs -/

/-- Worker numbers `2 s + c` enumerate the pairs (SparseCore, subcore). -/
def wEquiv : Fin 2 × Fin 16 ≃ Fin 32 where
  toFun p := wOf p.1 p.2
  invFun w := (⟨w.val % 2, Nat.mod_lt _ (by decide)⟩, ⟨w.val / 2, by have := w.isLt; omega⟩)
  left_inv p := by
    obtain ⟨c, s⟩ := p
    apply Prod.ext <;> apply Fin.ext <;> simp [wOf] <;> omega
  right_inv w := by apply Fin.ext; simp [wOf]; omega

/-- A family over the workers is the family over the SparseCores of the families over their subcores. -/
theorem bigSep_workers (Φ : Fin 32 → sProp 𝕄) :
    (bigSep Finset.univ fun c : Fin ((K (F := F)).nCore 0) => bigSep Finset.univ fun i : Fin ((K (F := F)).nSub 0) =>
        Φ (wOf (Fin.cast nCore_zero c) (Fin.cast nSub_zero i))) = bigSep Finset.univ Φ := by
  rw [bigSep_univ_equiv wEquiv Φ, bigSep_univ_prod]
  rfl

variable [FloatOps F]

/-! ## A SparseCore passes on what it is handed -/

theorem vecSplit : (K (F := F)).VecSplit' (P m) 0 := by
  intro d c
  show (bigSep Finset.univ fun i : Fin ((K (F := F)).nSub 0) => goRes m d (wOf (Fin.cast nCore_zero c) (Fin.cast nSub_zero i)))
      ⊢ |={Set.univ}=> iprop((bigSep Finset.univ fun i : Fin ((K (F := F)).nSub 0) => goRes m d (wOf (Fin.cast nCore_zero c) (Fin.cast nSub_zero i)))
        ∗ ((bigSep Finset.univ fun i : Fin ((K (F := F)).nSub 0) => tdRes m d (wOf (Fin.cast nCore_zero c) (Fin.cast nSub_zero i)))
            -∗ (bigSep Finset.univ fun i : Fin ((K (F := F)).nSub 0) => tdRes m d (wOf (Fin.cast nCore_zero c) (Fin.cast nSub_zero i)))))
  iintro H; imodintro
  isplitl [H]; · iexact H
  iintro H; iexact H

/-! ## The blocks split and join; the table's tokens -/

omit [FloatOps F] in
theorem lRowSet_eq (w : Fin 32) : lRowSet w = (lrow w).set := by
  show ((View.whole (main_arg0_scv : Ref sig .scVector)).slice (lrow w)).set = _
  rw [View.set_slice]; exact Finset.map_refl
omit [FloatOps F] in
theorem oRowSet_eq (w : Fin 32) : oRowSet w = (orow w).set := by
  show ((View.whole (main_v0_scv : Ref sig .scVector)).slice (orow w)).set = _
  rw [View.set_slice]; exact Finset.map_refl
omit [FloatOps F] in
theorem lrows_disjoint : ∀ i ∈ (Finset.univ : Finset (Fin 32)), ∀ j ∈ (Finset.univ : Finset (Fin 32)), i ≠ j → Disjoint (lRowSet i) (lRowSet j) :=
  fun i _ j _ h => by rw [lRowSet_eq, lRowSet_eq]; exact Rect.part_disjoint ldiv h
omit [FloatOps F] in
theorem orows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h
omit [FloatOps F] in
theorem lrows_cover : (Finset.univ : Finset (Fin 32)).biUnion lRowSet = Finset.univ :=
  (Finset.biUnion_congr rfl fun i _ => lRowSet_eq i).trans (Rect.biUnion_part ldiv)
omit [FloatOps F] in
theorem orows_cover : (Finset.univ : Finset (Fin 32)).biUnion oRowSet = Finset.univ :=
  (Finset.biUnion_congr rfl fun i _ => oRowSet_eq i).trans (Rect.biUnion_part odiv)

omit [FloatOps F] in
theorem lPts_rows (d : Dev nD) (f : Buf (Elt F) (lLoc d)) :
    (lLoc d ↦{fullShare} f : sProp 𝕄) = bigSep Finset.univ fun w : Fin 32 => lLoc d ↦[lRowSet w]{fullShare} f := by
  rw [← pointsTo_biUnion Finset.univ (ℓ := lLoc d) lRowSet lrows_disjoint, lrows_cover]; try rfl
omit [FloatOps F] in
theorem oPts_rows (d : Dev nD) (f : Buf (Elt F) (oLoc d)) :
    (oLoc d ↦{fullShare} f : sProp 𝕄) = bigSep Finset.univ fun w : Fin 32 => oLoc d ↦[oRowSet w]{fullShare} f := by
  rw [← pointsTo_biUnion Finset.univ (ℓ := oLoc d) oRowSet orows_disjoint, orows_cover]; try rfl
omit [FloatOps F] in
/-- The table's full ownership is thirty-two read tokens and a remainder. -/
theorem tPts_toks (d : Dev nD) (f : Buf (Elt F) (tLoc d)) :
    (tLoc d ↦{fullShare} f : sProp 𝕄) ⊣⊢ iprop((tLoc d ↦{tqRest} f) ∗ bigSep Finset.univ fun w : Fin 32 => tLoc d ↦{tq w} f) :=
  Transfers.pointsTo_toks fullShare 32

omit [FloatOps F] in
/-- What the workers hold together, array by array. -/
theorem res_split (d : Dev nD) (f : Buf (Elt F) (oLoc d)) :
    (bigSep Finset.univ fun w : Fin 32 => iprop(lRowPts m d w ∗ tShPts m d w ∗ oRowPts d w f))
      = iprop(lPts m d ∗ (bigSep Finset.univ fun w : Fin 32 => tShPts m d w) ∗ oPts d f) := by
  rw [bigSep_sep', bigSep_sep']
  unfold lPts oPts lRowPts oRowPts
  rw [lPts_rows, oPts_rows]

/-! ## The launch element of the certificate's ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄)
      = iprop((lLoc d ↦{fullShare} W main_arg0) ∗ (aLoc d ↦{fullShare} W main_arg1) ∗ (tLoc d ↦{fullShare} W main_arg2) ∗ oLoc d ↦{fullShare} W main_v0) := by
  unfold unscopedBufs
  rw [show (Finset.univ.filter fun b : Ref sig .tc => ¬ b.isScoped) = {main_arg0, main_arg1, main_arg2, main_v0} by decide,
    SparseCore.bigSep_insert' (by decide), SparseCore.bigSep_insert' (by decide), SparseCore.bigSep_insert' (by decide), bigSep_singleton]

theorem st0_eq (d : Dev nD) :
    (bigSep Finset.univ fun c : Fin ((K (F := F)).nCore 0) => (P m).st 0 d c) = bigSep Finset.univ fun w : Fin 32 => goRes m d w :=
  bigSep_workers (fun w => goRes m d w)
theorem dn0_eq (d : Dev nD) :
    (bigSep Finset.univ fun c : Fin ((K (F := F)).nCore 0) => (P m).dn 0 d c) = bigSep Finset.univ fun w : Fin 32 => tdRes m d w :=
  bigSep_workers (fun w => tdRes m d w)

/-- What the TensorCore ends with: the three arguments as launched, the result the specification's. -/
abbrev FIN (d : Dev nD) : sProp 𝕄 := iprop(lPts m d ∗ aPts m d ∗ tPts m d ∗ oPts d (Gout m d))

/-- @main on device `d`'s TensorCore: the one call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hl, Harg, Ht, Ho⟩, -, -⟩, -⟩
  ihave Ht2 := (tPts_toks d _).1 $$ Ht
  icases Ht2 with ⟨Hrest, Htt⟩
  iapply ((K (F := F)).wp_run (D (F := F)) 𝒱 (EH := EH) (P := P m) κ d 0) $$ [Hst Hl Htt Ho Harg Hrest]
  isplitr; · iexact Hctx
  isplitl [Hst]; · iexact Hst
  isplitl [Hl Htt Ho]
  · rw [st0_eq, res_split]
    isplitl [Hl]; · iexact Hl
    isplitl [Htt]; · iexact Htt
    iexact Ho
  iintro ⟨Hst, Hdn⟩
  ihave Hdn' := (Entails.of_eq ((dn0_eq m d).trans (res_split m d (Gout m d)))) $$ Hdn
  icases Hdn' with ⟨Hl, Htt, Ho⟩
  ihave Ht := (tPts_toks d _).2 $$ [Hrest Htt]; · isplitl [Hrest] <;> iassumption
  imodintro
  isplitl [Hst]; · iexact Hst
  isplitl [Hl]; · iexact Hl
  isplitl [Harg]; · iexact Harg
  isplitl [Ht]; · iexact Ht
  iexact Ho

def fq (d : Dev nD) (s' : Phys nD τ sig (Elt F)) : Prop :=
  s'.mem.mem (oLoc d) = Gout m d ∧ s'.mem.mem (lLoc d) = m (lLoc d) ∧ s'.mem.mem (aLoc d) = m (aLoc d) ∧ s'.mem.mem (tLoc d) = m (tLoc d)

set_option maxRecDepth 16384 in
theorem hfin (d : Dev nD) (s' : Phys nD τ sig (Elt F)) : iprop(FIN m d ∗ SI s') ⊢ (⌜fq m d s'⌝ : sProp 𝕄) := by
  iintro ⟨⟨Hl, Ha, Ht, Ho⟩, HSI⟩
  ihave H := (persistent_entails_right (SI_pointsTo_agree (st := s') (ℓ := lLoc d) (I := Finset.univ) (q := fullShare) (f := m (lLoc d)))) $$ [HSI Hl]
  · isplitl [HSI] <;> iassumption
  icases H with ⟨%h1, HSI, -⟩
  ihave H := (persistent_entails_right (SI_pointsTo_agree (st := s') (ℓ := aLoc d) (I := Finset.univ) (q := fullShare) (f := m (aLoc d)))) $$ [HSI Ha]
  · isplitl [HSI] <;> iassumption
  icases H with ⟨%h2, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h3, HSI, -⟩
  ihave H := (SI_pointsTo_agree (st := s') (ℓ := oLoc d) (I := Finset.univ) (q := fullShare) (f := Gout m d)) $$ [HSI Ho]
  · isplitl [HSI] <;> iassumption
  icases H with %h4
  ipureintro
  exact ⟨funext fun i => h4 i (Finset.mem_univ i), funext fun i => h1 i (Finset.mem_univ i), funext fun i => h2 i (Finset.mem_univ i),
    funext fun i => h3 i (Finset.mem_univ i)⟩

/-! ## The program's run -/

/-- The run's post: on every device the result is the specification's and the three arguments are as launched. -/
def QC : PUnit × MemSt nD τ sig (Elt F) → Prop := fun r => ∀ c : Dev nD,
  r.2.mem (oLoc c) = Gout m c ∧ r.2.mem (lLoc c) = m (lLoc c) ∧ r.2.mem (aLoc c) = m (aLoc c) ∧ r.2.mem (tLoc c) = m (tLoc c)

theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KN

end
-- ==== Proof.RefRun.lean ====
/-
  The reference's run, by hand. The reference is a host program of tensor values only: @main calls the outlined
  take, which calls the outlined where; with both calls unfolded at their call sites it is one straight line of
  twenty-three operations over the buffers of the call's record. Run in order from any memory, the line ends with the
  result buffer at the operations' composed pure term `out` of the labels' and the table's launch contents, and
  with the three argument buffers as they were (no operation writes them). Nothing here looks at what `out`
  computes; that is the next module.
-/
import proofs.«209772_g1726576855934_cont_week2b_1416_16_alg».proof.Proof.Gen.ReferenceIdeal
import Idealize.ShloMosaic.Lib.StableHlo.Run

noncomputable section

namespace Cert.RefSide

open Cert.ReferenceIdeal Cert.ReferenceIdeal.Facts₀ Idealize.ShloMosaic Idealize.ShloMosaic.TcCoe Idealize.SL.Sem
  Idealize.ShloMosaic.StableHlo

variable {F : FTy → Type} [FloatOps F] [Cert.ReferenceIdeal.Facts]

/-- @main's operations in order, the two calls unfolded: the take's six operations before its call of the where
    (the zero and its broadcast, the test `label < 0`, the table's row count and its broadcast, `label + rows`),
    the where's one (the select between the two), then the take's remaining sixteen (the chosen index as a column,
    the bounds test against 0 and against the last row and its reduction over the column's one entry, the gather,
    the test's broadcast over the columns, the not-a-number constant and its broadcast, the final select). -/
abbrev ops : List (HloOp τ sig (Elt F)) :=
  [ TRef.nullary main_call0.c (constantI S_ 32 0#32),
    TRef.unary main_call0.c main_call0.v0 (broadcastInDim S16384 ![] bcast_S_S16384),
    TRef.binary (.of main_arg0 : TRef sig ⟨S16384, .i32⟩) main_call0.v0 main_call0.v1 (cmpi .slt),
    TRef.nullary main_call0.c_0 (constantI S_ 32 1000001#32),
    TRef.unary main_call0.c_0 main_call0.v2 (broadcastInDim S16384 ![] bcast_S_S16384),
    TRef.binary (.of main_arg0 : TRef sig ⟨S16384, .i32⟩) main_call0.v2 main_call0.v3 addi,
    TRef.ternary main_call0.v1 main_call0.v3 (.of main_arg0 : TRef sig ⟨S16384, .i32⟩) main_call0.call0.v0 select,
    TRef.unary main_call0.call0.v0 main_call0.v5 (broadcastInDim S16384x1 ![0] bcast_S16384_S16384x1_0),
    TRef.nullary main_call0.c_1 (constantI S1 32 1000000#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg2 : TRef sig ⟨S1000001x128, .f32⟩) main_call0.v5 main_call0.v13 (fun x i => Host.gather gather_S1000001x128_S16384x1_S16384x128_1_0_n_n_0_1_1128 x i),
    TRef.unary main_call0.v12 main_call0.v14 (broadcastInDim S16384x128 ![0] bcast_S16384_S16384x128_0),
    TRef.nullary main_call0.cst (constant S_ .f32 0x7FC00000#32),
    TRef.unary main_call0.cst main_call0.v15 (broadcastInDim S16384x128 ![] bcast_S_S16384x128),
    TRef.ternary main_call0.v14 main_call0.v13 main_call0.v15 main_call0.v16 select ]

/-- @main is that straight line: the two functions unfolded at their calls and the sequencing reassociated. -/
theorem main_eq (c : Dev nD) : main (F := F) c = seq ops := by
  simp only [main, fn_take.body, fn_where.body, seq, bind_assoc, pure_bind]

/-- The chosen row index per label, as the program computes it: the label itself where it is not negative,
    the label plus the row count where it is. -/
def chosen (lab : IVec S16384 32) : IVec S16384 32 :=
  select (cmpi .slt lab (broadcastInDim S16384 ![] bcast_S_S16384 (constantI S_ 32 0#32)))
    (addi lab (broadcastInDim S16384 ![] bcast_S_S16384 (constantI S_ 32 1000001#32))) lab

/-- The chosen indices as a column: the gather's start indices. -/
def column (lab : IVec S16384 32) : IVec S16384x1 32 :=
  broadcastInDim S16384x1 ![0] bcast_S16384_S16384x1_0 (chosen lab)

/-- Per label, whether the chosen index lies between 0 and the last row. -/
def inBounds (lab : IVec S16384 32) : IVec S16384 1 :=
  Host.reduce IntOp.andi
    (andi (cmpi .sge (column lab) (broadcastInDim S16384x1 ![] bcast_S_S16384x1 (constantI S_ 32 0#32)))
      (cmpi .sle (column lab)
        (broadcastInDim S16384x1 ![0, 1] bcast_S1x1_S16384x1_0_1
          (broadcastInDim S1x1 ![1] bcast_S1_S1x1_1 (constantI S1 32 1000000#32)))))
    (constantI S_ 1 1#1) reducesTo_S16384x1_S16384_d1 h_S_

/-- The result as the operations compose it: the gathered rows where the index is in bounds, the not-a-number
    constant elsewhere. -/
def out (lab : IVec S16384 32) (tbl : FVec F S1000001x128 .f32) : FVec F S16384x128 .f32 :=
  select (broadcastInDim S16384x128 ![0] bcast_S16384_S16384x128_0 (inBounds lab))
    (Host.gather gather_S1000001x128_S16384x1_S16384x128_1_0_n_n_0_1_1128 tbl (column lab))
    (broadcastInDim S16384x128 ![] bcast_S_S16384x128 (constant S_ .f32 0x7FC00000#32))

attribute [local irreducible] Host.reduce Host.gather in
/-- The fold of the line at the result buffer is `out` of the contents of the labels' and the table's buffers:
    each operation writes its own buffer once, from buffers written before it (the transports between a buffer's
    type and its value's type are identities at these literal buffers). -/
theorem out_eq (V : Valuation τ sig (Elt F)) :
    after ops V (main_v0 : DevRef τ sig) = out (V (main_arg0 : DevRef τ sig)) (V (main_arg2 : DevRef τ sig)) := by
  after_results
  simp only [TRef.toBuf, TRef.ofBuf, cast_eq]
  rfl

theorem arg0_eq (V : Valuation τ sig (Elt F)) :
    after ops V (main_arg0 : DevRef τ sig) = V (main_arg0 : DevRef τ sig) := by
  after_results

theorem arg1_eq (V : Valuation τ sig (Elt F)) :
    after ops V (main_arg1 : DevRef τ sig) = V (main_arg1 : DevRef τ sig) := by
  after_results

theorem arg2_eq (V : Valuation τ sig (Elt F)) :
    after ops V (main_arg2 : DevRef τ sig) = V (main_arg2 : DevRef τ sig) := by
  after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- From any memory with zero counters every weakly fair execution of @main terminates, with the result buffer at
    `out` of the labels and the table as they were at the start, and the three arguments unchanged. -/
theorem run_out (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v0)
          = out (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v0).trans (out_eq _), (h c main_arg0).trans (arg0_eq _),
      (h c main_arg1).trans (arg1_eq _), (h c main_arg2).trans (arg2_eq _)⟩)
    (run_seq scopedRefs_eq scopedSems_eq defs main (fun _ => ops) main_eq (fun _ => ops_sub) m ρ)

end Cert.RefSide

end
-- ==== Proof.RefValue.lean ====
/-
  What the reference computes, under the precondition's bound on the labels. Every label `ℓ` is a word whose
  unsigned reading is at most 999999; its top bit is therefore clear and its signed reading is the same number.
  Then, label by label: the test `ℓ < 0` fails, so the index the program chooses is `ℓ` itself (never
  `ℓ + 1000001`); the bounds test `0 ≤ ℓ ∧ ℓ ≤ 1000000` holds, so the mask is 1 in every row; the gather reads
  the table at row `ℓ` clamped into `[0, 1000000]`, which is the specification's capped row number; and the final
  select, the mask being 1, takes the gathered entry and never the not-a-number constant. Entry `(r, q)` of the
  result depends on label `r` and on entry `(label r, q)` of the table only.
-/
import proofs.«209772_g1726576855934_cont_week2b_1416_16_alg».proof.Proof.RefRun
import proofs.«209772_g1726576855934_cont_week2b_1416_16_alg».proof.Proof.Spec
import Idealize.ShloMosaic.Lib.ValueIdx
import Idealize.ShloMosaic.Lib.Pipeline.Value
import Idealize.ShloMosaic.Lib.Affine
import Idealize.ShloMosaic.Lib.ReduceAll

noncomputable section

namespace Cert.RefSide

open Idealize.ShloMosaic Idealize.ShloMosaic.ValueIdx

/-! ## Words -/

/-- A word of at most 999999 reads the same signed and unsigned. -/
theorem toInt_of_le {w : BitVec 32} (h : w.toNat ≤ 999999) : w.toInt = (w.toNat : Int) :=
  BitVec.toInt_eq_toNat_of_lt (by omega)

/-- Such a word does not test negative. -/
theorem slt_zero_ne_one {w : BitVec 32} (h : w.toNat ≤ 999999) : ¬IntOp.cmpi .slt w 0#32 = 1#1 := by
  intro e
  have h1 := IntOp.cmpi_slt.1 e
  rw [toInt_of_le h, show (0#32 : BitVec 32).toInt = 0 from by decide] at h1
  omega

/-- It tests at least zero. -/
theorem sge_zero_eq_one {w : BitVec 32} (h : w.toNat ≤ 999999) : IntOp.cmpi .sge w 0#32 = 1#1 := by
  refine IntOp.cmpi_sge.2 ?_
  rw [toInt_of_le h, show (0#32 : BitVec 32).toInt = 0 from by decide]
  omega

/-- It tests at most the last row's number. -/
theorem sle_last_eq_one {w : BitVec 32} (h : w.toNat ≤ 999999) : IntOp.cmpi .sle w 1000000#32 = 1#1 := by
  refine IntOp.cmpi_sle.2 ?_
  rw [toInt_of_le h, show (1000000#32 : BitVec 32).toInt = 1000000 from by decide]
  omega

/-- Read signed and brought back to a natural number it is itself. -/
theorem toInt_toNat_of_le {w : BitVec 32} (h : w.toNat ≤ 999999) : w.toInt.toNat = w.toNat := by
  rw [toInt_of_le h]; rfl

/-! ## An `and`-reduction of ones -/

/-- A left fold by `and` from 1 over ones is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi (1#1 : BitVec 1) 1#1 = 1#1 from by decide]
    exact foldl_andi_ones f l fun n hn => h n (List.mem_cons_of_mem _ hn)

/-- A reduction by `and`, from an initial value 1, of an array of ones is 1 at every index. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : init (Shape.Idx.first hu) = 1#1) (j : t.Idx) :
    Host.reduce IntOp.andi x init h hu j = 1#1 := by
  rw [Host.reduce_eq_foldl, hinit]
  exact foldl_andi_ones x _ fun n _ => hx n

/-! ## A gather of whole rows

What `table[idx]` of a matrix `[N, C]` at a column of row numbers `[R, 1]` lowers to: offset axis 1 of the
result reads the matrix's axis 1 whole (slice sizes `[1, C]`), the matrix's axis 0 is collapsed and is the one axis
the start index names, the index vector runs along the column's axis 1 (of extent one). Result entry `(r, q)` is the
matrix's entry `(i, q)` with `i` the start index `idx[r, 0]` read signed and clamped into `[0, N − 1]`. -/

section Rows
variable {α : Type}

/-- Those dimension numbers; their conditions are decided on a program's literal shapes. -/
abbrev rowsDims (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The gather read at `(r, q)`: on the matrix's axis 0 the clamped start index and nothing else (the axis is
    collapsed: no offset; nothing is a batching axis); on its axis 1 no start (the start index does not name it) and
    the result's own column `q` as the offset. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (q : Fin C) :
    Host.gather (rowsDims N C R wf) x idx (ix2 r q)
      = x (ix2 ⟨min (idx (ix2 r (0 : Fin 1))).toInt.toNat (N - 1), by omega⟩ q) := by
  unfold Host.gather
  congr 1
  funext a
  refine Fin.ext ?_
  match a with
  | ⟨0, _⟩ =>
    show (rowsDims N C R wf).start (ix2 r q) idx 0 + (rowsDims N C R wf).batchCoord (ix2 r q) 0
        + (rowsDims N C R wf).offCoord (ix2 r q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C R wf).startIndexMap from List.mem_singleton.mpr rfl)]
    have hsi : (rowsDims N C R wf).siIdx (ix2 r q) ⟨List.idxOf (0 : Fin 2) (rowsDims N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowsDims N C R wf).start (ix2 r q) idx 1 + (rowsDims N C R wf).batchCoord (ix2 r q) 1
        + (rowsDims N C R wf).offCoord (ix2 r q) 1 = q.val
    rw [GatherDims.batchCoord_eq_zero _ _ _ List.not_mem_nil]
    unfold GatherDims.start
    rw [dif_neg (show ¬(1 : Fin 2) ∈ ([0] : List (Fin 2)) from by decide)]
    unfold GatherDims.offCoord
    rw [dif_pos ((GatherDims.mem_sKept _ _).2
      ⟨(show ¬(1 : Fin 2) ∈ ([0] : List (Fin 2)) from by decide), List.not_mem_nil⟩)]
    rw [Nat.zero_add]
    rfl

end Rows

/-! ## The reference's stages at an index -/

open Cert.ReferenceIdeal

variable {F : FTy → Type} [FloatOps F] [Cert.ReferenceIdeal.Facts]

/-- The chosen index is the label: a label in range is not negative, so the select takes its second branch. -/
theorem chosen_apply (lab : IVec S16384 32) (hlab : ∀ j, (lab j).toNat ≤ 999999) (k : S16384.Idx) :
    chosen lab k = lab k := by
  show Scalar.select (IntOp.cmpi .slt (lab k) 0#32) (IntOp.addi (lab k) 1000001#32) (lab k) = lab k
  exact if_neg (slt_zero_ne_one (hlab k))

/-- The column of start indices at row `r` (its one entry) is label `r`. -/
theorem column_apply (lab : IVec S16384 32) (hlab : ∀ j, (lab j).toNat ≤ 999999) (i : S16384x1.Idx) :
    column lab i = lab (ix1 ⟨(i 0).val, idx2_lt0 i⟩) := by
  unfold column
  rw [broadcastInDim_apply _ _ _ i (ix1 ⟨(i 0).val, idx2_lt0 i⟩) (fun a => match a with | ⟨0, _⟩ => rfl)]
  exact chosen_apply lab hlab _

/-- The bounds test holds for every label: the mask is 1 in every row. -/
theorem inBounds_apply (lab : IVec S16384 32) (hlab : ∀ j, (lab j).toNat ≤ 999999) (k : S16384.Idx) :
    inBounds lab k = 1#1 := by
  unfold inBounds
  refine reduce_andi_ones _ _ _ _ (fun i => ?_) rfl k
  show IntOp.andi (IntOp.cmpi .sge (column lab i) 0#32) (IntOp.cmpi .sle (column lab i) 1000000#32) = 1#1
  rw [column_apply lab hlab i]
  exact IntOp.andi_eq_one.2 ⟨sge_zero_eq_one (hlab _), sle_last_eq_one (hlab _)⟩

/-- The program's gather dimension numbers are the whole-rows ones. -/
theorem gatherDims_eq :
    gather_S1000001x128_S16384x1_S16384x128_1_0_n_n_0_1_1128
      = rowsDims 1000001 128 16384 Facts₀.gather_S1000001x128_S16384x1_S16384x128_1_0_n_n_0_1_1128_wf := rfl

/-- The result at an index is the scalar select of the three arrays' entries there. -/
theorem out_at (lab : IVec S16384 32) (tbl : FVec F S1000001x128 .f32) (j : S16384x128.Idx) :
    out lab tbl j
      = Scalar.select (broadcastInDim S16384x128 ![0] Facts₀.bcast_S16384_S16384x128_0 (inBounds lab) j)
          (Host.gather gather_S1000001x128_S16384x1_S16384x128_1_0_n_n_0_1_1128 tbl (column lab) j)
          (broadcastInDim S16384x128 ![] Facts₀.bcast_S_S16384x128 (constant S_ .f32 0x7FC00000#32) j) := rfl

/-- The mask broadcast over the columns is 1 everywhere: it reads the row's mask, which is 1. -/
theorem mask_apply (lab : IVec S16384 32) (hlab : ∀ j, (lab j).toNat ≤ 999999) (j : S16384x128.Idx) :
    broadcastInDim S16384x128 ![0] Facts₀.bcast_S16384_S16384x128_0 (inBounds lab) j = 1#1 := by
  unfold broadcastInDim
  exact inBounds_apply lab hlab _

/-- The result at `(r, q)`: entry `(label r, q)` of the table. -/
theorem out_apply (lab : IVec S16384 32) (tbl : FVec F S1000001x128 .f32) (hlab : ∀ j, (lab j).toNat ≤ 999999)
    (r : Fin 16384) (q : Fin 128) : out lab tbl (ix2 r q) = Cert.Spec.lookup lab tbl (ix2 r q) := by
  rw [Cert.Spec.lookup_apply, out_at, mask_apply lab hlab, select_one, gatherDims_eq, gather_rows_apply (by decide)]
  refine congrArg tbl (congrArg (fun i => ix2 i q) (Fin.ext ?_))
  have hc : column lab (ix2 r (0 : Fin 1)) = lab (ix1 r) := column_apply lab hlab _
  show min (column lab (ix2 r (0 : Fin 1))).toInt.toNat 1000000 = min (lab (ix1 r)).toNat 1000000
  rw [hc, toInt_toNat_of_le (hlab _)]

/-- The reference's result is the specification's lookup. -/
theorem out_eq_lookup (lab : IVec S16384 32) (tbl : FVec F S1000001x128 .f32) (hlab : ∀ j, (lab j).toNat ≤ 999999) :
    out lab tbl = Cert.Spec.lookup lab tbl := by
  funext j
  rw [eq_ix2 j]
  exact out_apply lab tbl hlab _ _

/-! ## The run, its result named by the specification -/

open Idealize.ShloMosaic.TcCoe Idealize.SL.Sem

/-- From any memory whose labels are all at most 999999 (and zero counters) every weakly fair execution of the
    reference terminates, the result the specification's lookup of the labels in the table, the arguments unchanged. -/
theorem run (m : (ℓ : Loc nD τ sig) → Buf (Elt Ideal) ℓ) (ρ : Dev nD → PrngReg)
    (hin : ∀ (c : Dev nD) j, (m ((c.tc : Thread nD τ).loc main_arg0) j).toNat ≤ 999999) :
    θ_run (defs (F := Ideal)) (onTc (τ := τ) (main (F := Ideal))) ⟨m, fun _ => 0, ρ⟩ (fun r => ∀ c : Dev nD,
      r.2.mem ((c.tc : Thread nD τ).loc main_v0)
          = Cert.Spec.lookup (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (out_eq_lookup _ _ (hin c)), (h c).2⟩) (run_out m ρ)

end Cert.RefSide

end
-- ==== Proof.PreLabels.lean ====
/-
  The precondition, read back for the labels. The printed predicate is a conjunction of three `all` tests; the middle
  one says of every label word `ℓ`, read as a signed number, `0 ≤ ℓ` and `ℓ ≤ 999999`. A signed word that is
  non-negative has its top bit clear, so its unsigned reading is the same number: every label is at most 999999 as a
  natural number. The float conjunct and the conjunct on the scalar argument are split off and not looked at.
-/
import proofs.«209772_g1726576855934_cont_week2b_1416_16_alg».proof.Pre_input_domain
import Idealize.ShloMosaic.Lib.ReduceAll
import Idealize.ShloMosaic.Lib.ValueIdx
import Idealize.ShloMosaic.Lib.StableHlo.Run

namespace Cert.RefSide

open Idealize.ShloMosaic

/-- The rank-zero shape has one index. -/
instance : Subsingleton Cert.Pre_input_domain.S_.Idx := ⟨fun a b => funext fun d => d.elim0⟩

/-- A word that reads, signed, between 0 and 999999 reads the same unsigned. -/
theorem toNat_le_of_signed_range {w : BitVec 32} (h0 : (0#32 : BitVec 32).toInt ≤ w.toInt)
    (h1 : w.toInt ≤ (999999#32 : BitVec 32).toInt) : w.toNat ≤ 999999 := by
  have e0 : (0#32 : BitVec 32).toInt = 0 := by decide
  have e1 : (999999#32 : BitVec 32).toInt = 999999 := by decide
  rw [e0] at h0
  rw [e1] at h1
  have hlt : 2 * w.toNat < 2 ^ 32 := BitVec.toInt_pos_iff.1 h0
  rw [BitVec.toInt_eq_toNat_of_lt hlt] at h1
  omega

/-- Under the precondition every label, as a natural number, is at most 999999. -/
theorem labels_of_pre {F : FTy → Type} [FloatOps F] [Cert.Pre_input_domain.Facts]
    (lab : IVec Cert.Pre_input_domain.S16384 32) (tr : IVec Cert.Pre_input_domain.S_ 32)
    (tbl : FVec F Cert.Pre_input_domain.S1000001x128 .f32)
    (h : Cert.Pre_input_domain.fn (F := F) lab tr tbl = fun _ => 1#1) : ∀ j, (lab j).toNat ≤ 999999 := by
  intro j
  have h0 := congrFun h ValueIdx.ix0
  dsimp only [Cert.Pre_input_domain.fn, andi] at h0
  obtain ⟨h10, -⟩ := IntOp.andi_eq_one.1 h0
  obtain ⟨-, h9⟩ := IntOp.andi_eq_one.1 h10
  have hj := Host.reduce_andi_all _ _ _ _ _ h9 j
  dsimp only [andi, cmpi, broadcastInDim, constantI] at hj
  obtain ⟨hge, hle⟩ := IntOp.andi_eq_one.1 hj
  exact toNat_le_of_signed_range (IntOp.cmpi_sge.1 hge) (IntOp.cmpi_sle.1 hle)

end Cert.RefSide
-- ==== Proof.lean ====
/-
  An embedding lookup on thirty-two vector subcores against `jnp.take`.

  The kernel: worker `w = 2 s + c` (subcore `s` of SparseCore `c`) copies labels `[512 w, 512 w + 512)` into its index
  buffer, has the table's rows those labels name copied into its row buffer, and copies that out to rows
  `[512 w, 512 w + 512)` of the result. The reference: `take` wraps a negative label by the table's height, masks the
  labels outside `[0, 1000000]` to NaN, and gathers with the index clamped. Under the precondition every label lies in
  `[0, 999999]`: nothing is wrapped, masked or clamped, every entry of every index list names a row, and both results
  are the specification `Spec.lookup`: row `r` of the result is the table's row number `label r`.

  The frames are the runs with the values dropped; nothing was rewritten by the idealization, so `preserves` is
  trivial; `algebraic` is the two runs at the extended reals, from memories that agree on the arguments, both ending at
  `Spec.lookup` of the same labels and table.
-/
import proofs.«209772_g1726576855934_cont_week2b_1416_16_alg».proof.Defs
import proofs.«209772_g1726576855934_cont_week2b_1416_16_alg».proof.Proof.Gen.Kernel
import proofs.«209772_g1726576855934_cont_week2b_1416_16_alg».proof.Proof.Gen.Kernel.Skeleton
import proofs.«209772_g1726576855934_cont_week2b_1416_16_alg».proof.Proof.Gen.KernelIdeal
import proofs.«209772_g1726576855934_cont_week2b_1416_16_alg».proof.Proof.Gen.KernelIdeal.Skeleton
import proofs.«209772_g1726576855934_cont_week2b_1416_16_alg».proof.Proof.Gen.ReferenceIdeal
import proofs.«209772_g1726576855934_cont_week2b_1416_16_alg».proof.Proof.Gen.Pre_input_domain
import proofs.«209772_g1726576855934_cont_week2b_1416_16_alg».proof.Proof.KILaunch
import proofs.«209772_g1726576855934_cont_week2b_1416_16_alg».proof.Proof.KNLaunch
import proofs.«209772_g1726576855934_cont_week2b_1416_16_alg».proof.Proof.RefValue
import proofs.«209772_g1726576855934_cont_week2b_1416_16_alg».proof.Proof.PreLabels
import Idealize.ShloMosaic.Adequacy
import Idealize.ShloMosaic.Init

noncomputable section

namespace Cert.Proof

open Idealize.ShloMosaic Idealize.SL.Sem

/-- The precondition bounds every label by 999999: what the kernel's run asks of the launch memory (word-level program). -/
theorem preOK_Kernel (m : (ℓ : Loc Cert.Kernel.nD Cert.Kernel.τ Cert.Kernel.sig) → Buf (Elt Bits) ℓ) (h : Cert.Pre_Kernel m) :
    Cert.Proof.KN.PreOK (F := Bits) m :=
  fun d j => Cert.RefSide.labels_of_pre _ _ _ (h d) j

/-- The same for the idealized program. -/
theorem preOK_KernelIdeal (m : (ℓ : Loc Cert.KernelIdeal.nD Cert.KernelIdeal.τ Cert.KernelIdeal.sig) → Buf (Elt Ideal) ℓ) (h : Cert.Pre_KernelIdeal m) :
    Cert.Proof.KI.PreOK (F := Ideal) m :=
  fun d j => Cert.RefSide.labels_of_pre _ _ _ (h d) j

theorem frame_K : Cert.frame_Kernel := fun m ρ hpre =>
  (θ_run Cert.Kernel.defs _ _).mono (fun _ h c => (h c).2) (Cert.Proof.KN.run_main (F := Bits) m ρ (preOK_Kernel m hpre))

theorem frame_KI : Cert.frame_KernelIdeal := fun m ρ hpre =>
  (θ_run Cert.KernelIdeal.defs _ _).mono (fun _ h c => (h c).2) (Cert.Proof.KI.run_main (F := Ideal) m ρ (preOK_KernelIdeal m hpre))

theorem frame_RI : Cert.frame_ReferenceIdeal := fun m ρ hpre =>
  (θ_run Cert.ReferenceIdeal.defs _ _).mono (fun _ h c => (h c).2)
    (Cert.RefSide.run m ρ (fun c => Cert.RefSide.labels_of_pre _ _ _ (hpre c)))

/-- Both programs end at the lookup of the same labels and table. -/
theorem algebraic : Cert.algebraic_KernelIdeal_ReferenceIdeal := by
  intro m ρ m' ρ' hpre hagree
  refine ⟨fun c => Cert.Proof.KI.Gout (F := Ideal) m c, ?_, ?_⟩
  · exact (θ_run Cert.KernelIdeal.defs _ _).mono (fun _ h c => h c) (Cert.Proof.KI.run_main (F := Ideal) m ρ (preOK_KernelIdeal m hpre))
  · refine (θ_run Cert.ReferenceIdeal.defs _ _).mono (fun _ h c => ⟨(h c).1.trans ?_, (h c).2⟩)
      (Cert.RefSide.run m' ρ' (fun c j => ?_))
    · rw [(hagree c).1]
      exact preOK_KernelIdeal m hpre c j
    · rw [(hagree c).1, (hagree c).2.2]
      rfl

theorem claim : Cert.Claim :=
  ⟨Cert.Kernel.Gen.facts, Cert.KernelIdeal.Gen.facts, Cert.ReferenceIdeal.Gen.facts, Cert.Pre_input_domain.Gen.facts,
    frame_K, frame_KI, frame_RI, trivial, algebraic⟩

end Cert.Proof

end
